-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S2x1048576 : Shape := ⟨2, ![2, 1048576]⟩
abbrev S1048576 : Shape := ⟨1, ![1048576]⟩
abbrev S2x2097152 : Shape := ⟨2, ![2, 2097152]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S65536x32 .f32) (main_arg1 : IVec S2x1048576 32) (main_arg2 : FVec F S1048576 .f32) (main_arg3 : IVec S2x2097152 32) (main_arg4 : FVec F S32x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S65536x32 : Shape := ⟨2, ![65536, 32]⟩
abbrev S2x1048576 : Shape := ⟨2, ![2, 1048576]⟩
abbrev S1048576 : Shape := ⟨1, ![1048576]⟩
abbrev S2x2097152 : Shape := ⟨2, ![2, 2097152]⟩
abbrev S32x64 : Shape := ⟨2, ![32, 64]⟩
abbrev S64 : Shape := ⟨1, ![64]⟩
abbrev S64x64 : Shape := ⟨2, ![64, 64]⟩
abbrev S1x1048576 : Shape := ⟨2, ![1, 1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S65536x64 : Shape := ⟨2, ![65536, 64]⟩
abbrev S8192x32 : Shape := ⟨2, ![8192, 32]⟩
abbrev S8192x64 : Shape := ⟨2, ![8192, 64]⟩
abbrev S1114112x64 : Shape := ⟨2, ![1114112, 64]⟩
abbrev S1x64 : Shape := ⟨2, ![1, 64]⟩
abbrev S1x2097152 : Shape := ⟨2, ![1, 2097152]⟩
abbrev S2097152 : Shape := ⟨1, ![2097152]⟩
abbrev S2097152x1 : Shape := ⟨2, ![2097152, 1]⟩
abbrev S2097152x64 : Shape := ⟨2, ![2097152, 64]⟩
abbrev S8192x1 : Shape := ⟨2, ![8192, 1]⟩
abbrev S8192 : Shape := ⟨1, ![8192]⟩

abbrev nBuf : Space → Nat
  | .hbm => 203
  | .vmem => 66
  | .smem => 0
  | _ => 0

abbrev hbmTy0_0 (i : Nat) : BufTy := match i % 128 with
  | 0 => ⟨S65536x32, .f32⟩
  | 1 => ⟨S2x1048576, .i32⟩
  | 2 => ⟨S1048576, .f32⟩
  | 3 => ⟨S2x2097152, .i32⟩
  | 4 => ⟨S32x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S1x1048576, .i32⟩
  | 17 => ⟨S1048576, .i32⟩
  | 18 => ⟨S1x1048576, .i32⟩
  | 19 => ⟨S1048576, .i32⟩
  | 20 => ⟨S65536, .i32⟩
  | 21 => ⟨S1114112, .i32⟩
  | 22 => ⟨S1114112, .i32⟩
  | 23 => ⟨S_, .f32⟩
  | 24 => ⟨S65536, .f32⟩
  | 25 => ⟨S1114112, .f32⟩
  | 26 => ⟨S_, .f32⟩
  | 27 => ⟨S65536, .f32⟩
  | 28 => ⟨S1114112x1, .i32⟩
  | 29 => ⟨S65536, .f32⟩
  | 30 => ⟨S_, .f32⟩
  | 31 => ⟨S65536, .f32⟩
  | 32 => ⟨S65536, .i1⟩
  | 33 => ⟨S_, .f32⟩
  | 34 => ⟨S65536, .f32⟩
  | 35 => ⟨S65536, .i1⟩
  | 36 => ⟨S_, .f32⟩
  | 37 => ⟨S_, .f32⟩
  | 38 => ⟨S65536, .f32⟩
  | 39 => ⟨S65536, .f32⟩
  | 40 => ⟨S65536, .f32⟩
  | 41 => ⟨S_, .f32⟩
  | 42 => ⟨S_, .f32⟩
  | 43 => ⟨S65536, .f32⟩
  | 44 => ⟨S65536, .f32⟩
  | 45 => ⟨S_, .i32⟩
  | 46 => ⟨S1114112, .i32⟩
  | 47 => ⟨S1114112, .i1⟩
  | 48 => ⟨S_, .i32⟩
  | 49 => ⟨S1114112, .i32⟩
  | 50 => ⟨S1114112, .i32⟩
  | 51 => ⟨S1114112, .i32⟩
  | 52 => ⟨S1114112x1, .i32⟩
  | 53 => ⟨S1114112, .f32⟩
  | 54 => ⟨S1114112, .f32⟩
  | 55 => ⟨S_, .i32⟩
  | 56 => ⟨S1114112, .i32⟩
  | 57 => ⟨S1114112, .i1⟩
  | 58 => ⟨S_, .i32⟩
  | 59 => ⟨S1114112, .i32⟩
  | 60 => ⟨S1114112, .i32⟩
  | 61 => ⟨S1114112, .i32⟩
  | 62 => ⟨S1114112x1, .i32⟩
  | 63 => ⟨S1114112, .f32⟩
  | 64 => ⟨S1114112, .f32⟩
  | 65 => ⟨S65536x64, .f32⟩
  | 66 => ⟨S1114112x1, .f32⟩
  | 67 => ⟨S_, .i32⟩
  | 68 => ⟨S1114112, .i32⟩
  | 69 => ⟨S1114112, .i1⟩
  | 70 => ⟨S_, .i32⟩
  | 71 => ⟨S1114112, .i32⟩
  | 72 => ⟨S1114112, .i32⟩
  | 73 => ⟨S1114112, .i32⟩
  | 74 => ⟨S1114112x1, .i32⟩
  | 75 => ⟨S1114112x64, .f32⟩
  | 76 => ⟨S1114112x64, .f32⟩
  | 77 => ⟨S1114112x64, .f32⟩
  | 78 => ⟨S_, .f32⟩
  | 79 => ⟨S65536x64, .f32⟩
  | 80 => ⟨S1114112x1, .i32⟩
  | 81 => ⟨S65536x64, .f32⟩
  | 82 => ⟨S1x64, .f32⟩
  | 83 => ⟨S65536x64, .f32⟩
  | 84 => ⟨S65536x64, .f32⟩
  | 85 => ⟨S1114112x1, .f32⟩
  | 86 => ⟨S_, .i32⟩
  | 87 => ⟨S1114112, .i32⟩
  | 88 => ⟨S1114112, .i1⟩
  | 89 => ⟨S_, .i32⟩
  | 90 => ⟨S1114112, .i32⟩
  | 91 => ⟨S1114112, .i32⟩
  | 92 => ⟨S1114112, .i32⟩
  | 93 => ⟨S1114112x1, .i32⟩
  | 94 => ⟨S1114112x64, .f32⟩
  | 95 => ⟨S1114112x64, .f32⟩
  | 96 => ⟨S1114112x64, .f32⟩
  | 97 => ⟨S_, .f32⟩
  | 98 => ⟨S65536x64, .f32⟩
  | 99 => ⟨S1114112x1, .i32⟩
  | 100 => ⟨S65536x64, .f32⟩
  | 101 => ⟨S1x64, .f32⟩
  | 102 => ⟨S65536x64, .f32⟩
  | 103 => ⟨S65536x64, .f32⟩
  | 104 => ⟨S1114112x1, .f32⟩
  | 105 => ⟨S_, .i32⟩
  | 106 => ⟨S1114112, .i32⟩
  | 107 => ⟨S1114112, .i1⟩
  | 108 => ⟨S_, .i32⟩
  | 109 => ⟨S1114112, .i32⟩
  | 110 => ⟨S1114112, .i32⟩
  | 111 => ⟨S1114112, .i32⟩
  | 112 => ⟨S1114112x1, .i32⟩
  | 113 => ⟨S1114112x64, .f32⟩
  | 114 => ⟨S1114112x64, .f32⟩
  | 115 => ⟨S1114112x64, .f32⟩
  | 116 => ⟨S_, .f32⟩
  | 117 => ⟨S65536x64, .f32⟩
  | 118 => ⟨S1114112x1, .i32⟩
  | 119 => ⟨S65536x64, .f32⟩
  | 120 => ⟨S1x64, .f32⟩
  | 121 => ⟨S65536x64, .f32⟩
  | 122 => ⟨S65536x64, .f32⟩
  | 123 => ⟨S1114112x1, .f32⟩
  | 124 => ⟨S_, .i32⟩
  | 125 => ⟨S1114112, .i32⟩
  | 126 => ⟨S1114112, .i1⟩
  | 127 => ⟨S_, .i32⟩
  | _ => ⟨S65536x32, .f32⟩

abbrev hbmTy0_1 (i : Nat) : BufTy := match i % 128 with
  | 0 => ⟨S1114112, .i32⟩
  | 1 => ⟨S1114112, .i32⟩
  | 2 => ⟨S1114112, .i32⟩
  | 3 => ⟨S1114112x1, .i32⟩
  | 4 => ⟨S1114112x64, .f32⟩
  | 5 => ⟨S1114112x64, .f32⟩
  | 6 => ⟨S1114112x64, .f32⟩
  | 7 => ⟨S_, .f32⟩
  | 8 => ⟨S65536x64, .f32⟩
  | 9 => ⟨S1114112x1, .i32⟩
  | 10 => ⟨S65536x64, .f32⟩
  | 11 => ⟨S1x64, .f32⟩
  | 12 => ⟨S65536x64, .f32⟩
  | 13 => ⟨S65536x64, .f32⟩
  | 14 => ⟨S1114112x1, .f32⟩
  | 15 => ⟨S_, .i32⟩
  | 16 => ⟨S1114112, .i32⟩
  | 17 => ⟨S1114112, .i1⟩
  | 18 => ⟨S_, .i32⟩
  | 19 => ⟨S1114112, .i32⟩
  | 20 => ⟨S1114112, .i32⟩
  | 21 => ⟨S1114112, .i32⟩
  | 22 => ⟨S1114112x1, .i32⟩
  | 23 => ⟨S1114112x64, .f32⟩
  | 24 => ⟨S1114112x64, .f32⟩
  | 25 => ⟨S1114112x64, .f32⟩
  | 26 => ⟨S_, .f32⟩
  | 27 => ⟨S65536x64, .f32⟩
  | 28 => ⟨S1114112x1, .i32⟩
  | 29 => ⟨S65536x64, .f32⟩
  | 30 => ⟨S1x64, .f32⟩
  | 31 => ⟨S65536x64, .f32⟩
  | 32 => ⟨S65536x64, .f32⟩
  | 33 => ⟨S1114112x1, .f32⟩
  | 34 => ⟨S_, .i32⟩
  | 35 => ⟨S1114112, .i32⟩
  | 36 => ⟨S1114112, .i1⟩
  | 37 => ⟨S_, .i32⟩
  | 38 => ⟨S1114112, .i32⟩
  | 39 => ⟨S1114112, .i32⟩
  | 40 => ⟨S1114112, .i32⟩
  | 41 => ⟨S1114112x1, .i32⟩
  | 42 => ⟨S1114112x64, .f32⟩
  | 43 => ⟨S1114112x64, .f32⟩
  | 44 => ⟨S1114112x64, .f32⟩
  | 45 => ⟨S_, .f32⟩
  | 46 => ⟨S65536x64, .f32⟩
  | 47 => ⟨S1114112x1, .i32⟩
  | 48 => ⟨S65536x64, .f32⟩
  | 49 => ⟨S1x64, .f32⟩
  | 50 => ⟨S65536x64, .f32⟩
  | 51 => ⟨S1x2097152, .i32⟩
  | 52 => ⟨S2097152, .i32⟩
  | 53 => ⟨S_, .i32⟩
  | 54 => ⟨S2097152, .i32⟩
  | 55 => ⟨S2097152, .i1⟩
  | 56 => ⟨S_, .i32⟩
  | 57 => ⟨S2097152, .i32⟩
  | 58 => ⟨S2097152, .i32⟩
  | 59 => ⟨S2097152, .i32⟩
  | 60 => ⟨S2097152x1, .i32⟩
  | 61 => ⟨S2097152x64, .f32⟩
  | 62 => ⟨S1x2097152, .i32⟩
  | 63 => ⟨S2097152, .i32⟩
  | 64 => ⟨S_, .i32⟩
  | 65 => ⟨S2097152, .i32⟩
  | 66 => ⟨S2097152, .i1⟩
  | 67 => ⟨S_, .i32⟩
  | 68 => ⟨S2097152, .i32⟩
  | 69 => ⟨S2097152, .i32⟩
  | 70 => ⟨S2097152, .i32⟩
  | 71 => ⟨S2097152x1, .i32⟩
  | 72 => ⟨S2097152x64, .f32⟩
  | 73 => ⟨S2097152x1, .f32⟩
  | 74 => ⟨S2097152, .f32⟩
  | _ => ⟨S65536x32, .f32⟩

abbrev hbmTy (i : Nat) : BufTy := match i / 128 with
  | 0 => hbmTy0_0 i
  | 1 => hbmTy0_1 i
  | _ => ⟨S65536x32, .f32⟩

abbrev bufTy : (tb : Table) → Fin (tcTables nBuf tb) → BufTy
  | .hbm, ⟨i, _⟩ => hbmTy i
  | .local _ .vmem, ⟨0, _⟩ => ⟨S8192x32, .f32⟩
  | .local _ .vmem, ⟨1, _⟩ => ⟨S8192x32, .f32⟩
  | .local _ .vmem, ⟨2, _⟩ => ⟨S32x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S1x64, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S8192x64, .f32⟩
  | .local _ .vmem, ⟨12, _⟩ => ⟨S64x64, .f32⟩
  | .local _ .vmem, ⟨13, _⟩ => ⟨S8192x64, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S1x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S64x64, .f32⟩
  | .local _ .vmem, ⟨23, _⟩ => ⟨S8192x64, .f32⟩
  | .local _ .vmem, ⟨24, _⟩ => ⟨S8192x64, .f32⟩
  | .local _ .vmem, ⟨25, _⟩ => ⟨S8192x64, .f32⟩
  | .local _ .vmem, ⟨26, _⟩ => ⟨S8192x64, .f32⟩
  | .local _ .vmem, ⟨27, _⟩ => ⟨S1x64, .f32⟩
  | .local _ .vmem, ⟨28, _⟩ => ⟨S8192x64, .f32⟩
  | .local _ .vmem, ⟨29, _⟩ => ⟨S8192x64, .f32⟩
  | .local _ .vmem, ⟨30, _⟩ => ⟨S8192x64, .f32⟩
  | .local _ .vmem, ⟨31, _⟩ => ⟨S8192x64, .f32⟩
  | .local _ .vmem, ⟨32, _⟩ => ⟨S64x64, .f32⟩
  | .local _ .vmem, ⟨33, _⟩ => ⟨S8192x64, .f32⟩
  | .local _ .vmem, ⟨34, _⟩ => ⟨S8192x64, .f32⟩
  | .local _ .vmem, ⟨35, _⟩ => ⟨S8192x64, .f32⟩
  | .local _ .vmem, ⟨36, _⟩ => ⟨S8192x64, .f32⟩
  | .local _ .vmem, ⟨37, _⟩ => ⟨S1x64, .f32⟩
  | .local _ .vmem, ⟨38, _⟩ => ⟨S8192x64, .f32⟩
  | .local _ .vmem, ⟨39, _⟩ => ⟨S8192x64, .f32⟩
  | .local _ .vmem, ⟨40, _⟩ => ⟨S8192x64, .f32⟩
  | .local _ .vmem, ⟨41, _⟩ => ⟨S8192x64, .f32⟩
  | .local _ .vmem, ⟨42, _⟩ => ⟨S64x64, .f32⟩
  | .local _ .vmem, ⟨43, _⟩ => ⟨S8192x64, .f32⟩
  | .local _ .vmem, ⟨44, _⟩ => ⟨S8192x64, .f32⟩
  | .local _ .vmem, ⟨45, _⟩ => ⟨S8192x64, .f32⟩
  | .local _ .vmem, ⟨46, _⟩ => ⟨S8192x64, .f32⟩
  | .local _ .vmem, ⟨47, _⟩ => ⟨S1x64, .f32⟩
  | .local _ .vmem, ⟨48, _⟩ => ⟨S8192x64, .f32⟩
  | .local _ .vmem, ⟨49, _⟩ => ⟨S8192x64, .f32⟩
  | .local _ .vmem, ⟨50, _⟩ => ⟨S8192x64, .f32⟩
  | .local _ .vmem, ⟨51, _⟩ => ⟨S8192x64, .f32⟩
  | .local _ .vmem, ⟨52, _⟩ => ⟨S64x64, .f32⟩
  | .local _ .vmem, ⟨53, _⟩ => ⟨S8192x64, .f32⟩
  | .local _ .vmem, ⟨54, _⟩ => ⟨S8192x64, .f32⟩
  | .local _ .vmem, ⟨55, _⟩ => ⟨S8192x64, .f32⟩
  | .local _ .vmem, ⟨56, _⟩ => ⟨S8192x64, .f32⟩
  | .local _ .vmem, ⟨57, _⟩ => ⟨S1x64, .f32⟩
  | .local _ .vmem, ⟨58, _⟩ => ⟨S8192x64, .f32⟩
  | .local _ .vmem, ⟨59, _⟩ => ⟨S8192x64, .f32⟩
  | .local _ .vmem, ⟨60, _⟩ => ⟨S8192x64, .f32⟩
  | .local _ .vmem, ⟨61, _⟩ => ⟨S8192x64, .f32⟩
  | .local _ .vmem, ⟨62, _⟩ => ⟨S8192x64, .f32⟩
  | .local _ .vmem, ⟨63, _⟩ => ⟨S8192x64, .f32⟩
  | .local _ .vmem, ⟨64, _⟩ => ⟨S8192x1, .f32⟩
  | .local _ .vmem, ⟨65, _⟩ => ⟨S8192x1, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_c_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_17 : Ref sig .tc := ⟨.hbm, 124, rfl⟩
abbrev main_v85 : Ref sig .tc := ⟨.hbm, 125, rfl⟩
abbrev main_v86 : Ref sig .tc := ⟨.hbm, 126, rfl⟩
abbrev main_c_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_20 : Ref sig .tc := ⟨.hbm, 143, rfl⟩
abbrev main_v101 : Ref sig .tc := ⟨.hbm, 144, rfl⟩
abbrev main_v102 : Ref sig .tc := ⟨.hbm, 145, rfl⟩
abbrev main_c_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_22 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_23 : Ref sig .tc := ⟨.hbm, 162, rfl⟩
abbrev main_v117 : Ref sig .tc := ⟨.hbm, 163, rfl⟩
abbrev main_v118 : Ref sig .tc := ⟨.hbm, 164, rfl⟩
abbrev main_c_24 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_25 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_26 : Ref sig .tc := ⟨.hbm, 181, rfl⟩
abbrev main_v133 : Ref sig .tc := ⟨.hbm, 182, rfl⟩
abbrev main_v134 : Ref sig .tc := ⟨.hbm, 183, rfl⟩
abbrev main_c_27 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_28 : Ref sig .tc := ⟨.hbm, 192, rfl⟩
abbrev main_v142 : Ref sig .tc := ⟨.hbm, 193, rfl⟩
abbrev main_v143 : Ref sig .tc := ⟨.hbm, 194, rfl⟩
abbrev main_c_29 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_stg2_0 : Ref sig .tc := ⟨.vmem, 64, rfl⟩
abbrev cc12_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem1_1 : DmaSem sig := 63
abbrev cc12_sem2_0 : DmaSem sig := 64
abbrev cc12_sem2_1 : DmaSem sig := 65

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8192x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S8192x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S8192x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S8192x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S8192x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8192x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S8192x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S8192x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![256], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8192x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8192x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S8192x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  inb_S8192x32_S8192x32_0_0 : ∀ a, (![0, 0] : Fin 2 → Nat) a + S8192x32.size a ≤ S8192x32.size a
  h_S8192x32 : 0 < S8192x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S8192x64_S8192x64_0_0 : ∀ a, (![0, 0] : Fin 2 → Nat) a + S8192x64.size a ≤ S8192x64.size a
  h_S8192x64 : 0 < S8192x64.numel
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  shapeCasts_S64_S1x64 : S64.ShapeCasts S1x64
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  slices_S2x2097152_S1x2097152_0_0 : S2x2097152.Slices ![0, 0] S1x2097152
  shapeCasts_S1x2097152_S2097152 : S1x2097152.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2x2097152_S1x2097152_1_0 : S2x2097152.Slices ![1, 0] S1x2097152
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S2097152x1_S2097152 : S2097152x1.ShapeCasts S2097152
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S8192x32_S32x64_S8192x64_1_0_0_1_n_n_wf : DotDims.WF S8192x32 S32x64 S8192x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S8192x64_S64x64_S8192x64_1_0_0_1_n_n_wf : DotDims.WF S8192x64 S64x64 S8192x64 [1] [0] [0] [1] [] []
  gather_S65536x64_S2097152x1_S2097152x64_1_0_n_n_0_1_164_wf : GatherDims.WF S65536x64 S2097152x1 S2097152x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S65536x32.size a
  hwx0_0 : ∀ i : grid0.Coords, EltTy.bits .f32 = 32 ∨ (Rect.block (s := S65536x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .f32 = 32 ∨ (Rect.block (s := S65536x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S65536x64.size a
  hwx1_0 : ∀ i : grid1.Coords, EltTy.bits .f32 = 32 ∨ (Rect.block (s := S65536x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S65536x64.size a
  hwx1_2 : ∀ i : grid1.Coords, EltTy.bits .f32 = 32 ∨ (Rect.block (s := S65536x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S65536x64.size a
  hwx2_0 : ∀ i : grid2.Coords, EltTy.bits .f32 = 32 ∨ (Rect.block (s := S65536x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S65536x64.size a
  hwx2_2 : ∀ i : grid2.Coords, EltTy.bits .f32 = 32 ∨ (Rect.block (s := S65536x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S65536x64.size a
  hwx3_0 : ∀ i : grid3.Coords, EltTy.bits .f32 = 32 ∨ (Rect.block (s := S65536x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S65536x64.size a
  hwx3_2 : ∀ i : grid3.Coords, EltTy.bits .f32 = 32 ∨ (Rect.block (s := S65536x64) S8192x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S65536x64.size a
  hwx4_0 : ∀ i : grid4.Coords, EltTy.bits .f32 = 32 ∨ (Rect.block (s := S65536x64) S8192x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S65536x64.size a
  hwx4_2 : ∀ i : grid4.Coords, EltTy.bits .f32 = 32 ∨ (Rect.block (s := S65536x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S65536x64.size a
  hwx5_0 : ∀ i : grid5.Coords, EltTy.bits .f32 = 32 ∨ (Rect.block (s := S65536x64) S8192x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x64.size a ≤ S65536x64.size a
  hwx5_2 : ∀ i : grid5.Coords, EltTy.bits .f32 = 32 ∨ (Rect.block (s := S65536x64) S8192x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x64.size a ≤ S65536x64.size a
  hwx6_0 : ∀ i : grid6.Coords, EltTy.bits .f32 = 32 ∨ (Rect.block (s := S65536x64) S8192x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x64.size a ≤ S65536x64.size a
  hwx6_2 : ∀ i : grid6.Coords, EltTy.bits .f32 = 32 ∨ (Rect.block (s := S65536x64) S8192x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x64.size a ≤ S65536x64.size a
  hwx7_0 : ∀ i : grid7.Coords, EltTy.bits .f32 = 32 ∨ (Rect.block (s := S65536x64) S8192x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x64.size a ≤ S65536x64.size a
  hwx7_2 : ∀ i : grid7.Coords, EltTy.bits .f32 = 32 ∨ (Rect.block (s := S65536x64) S8192x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x64.size a ≤ S65536x64.size a
  hwx8_0 : ∀ i : grid8.Coords, EltTy.bits .f32 = 32 ∨ (Rect.block (s := S65536x64) S8192x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8192x64.size a ≤ S65536x64.size a
  hwx8_2 : ∀ i : grid8.Coords, EltTy.bits .f32 = 32 ∨ (Rect.block (s := S65536x64) S8192x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x64.size a ≤ S65536x64.size a
  hwx9_0 : ∀ i : grid9.Coords, EltTy.bits .f32 = 32 ∨ (Rect.block (s := S65536x64) S8192x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8192x64.size a ≤ S65536x64.size a
  hwx9_2 : ∀ i : grid9.Coords, EltTy.bits .f32 = 32 ∨ (Rect.block (s := S65536x64) S8192x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8192x64.size a ≤ S65536x64.size a
  hwx10_0 : ∀ i : grid10.Coords, EltTy.bits .f32 = 32 ∨ (Rect.block (s := S65536x64) S8192x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8192x64.size a ≤ S65536x64.size a
  hwx10_2 : ∀ i : grid10.Coords, EltTy.bits .f32 = 32 ∨ (Rect.block (s := S65536x64) S8192x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x64.size a ≤ S65536x64.size a
  hwx11_0 : ∀ i : grid11.Coords, EltTy.bits .f32 = 32 ∨ (Rect.block (s := S65536x64) S8192x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8192x64.size a ≤ S65536x64.size a
  hwx11_2 : ∀ i : grid11.Coords, EltTy.bits .f32 = 32 ∨ (Rect.block (s := S65536x64) S8192x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8192x64.size a ≤ S2097152x64.size a
  hwx12_0 : ∀ i : grid12.Coords, EltTy.bits .f32 = 32 ∨ (Rect.block (s := S2097152x64) S8192x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8192x64.size a ≤ S2097152x64.size a
  hwx12_1 : ∀ i : grid12.Coords, EltTy.bits .f32 = 32 ∨ (Rect.block (s := S2097152x64) S8192x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8192x1.size a ≤ S2097152x1.size a
  hwx12_2 : ∀ i : grid12.Coords, EltTy.bits .f32 = 32 ∨ (Rect.block (s := S2097152x1) S8192x1.size (cc12_transform_2 i) (hinb12_2 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S65536x64_S2097152x1_S2097152x64_1_0_n_n_0_1_164 : GatherDims S65536x64 S2097152x1 S2097152x64 where
  offsetDims := [1]
  collapsedSliceDims := [0]
  operandBatchingDims := []
  startIndicesBatchingDims := []
  startIndexMap := [0]
  indexVectorDim := 1
  sliceSizes := ![1, 64]
  wf := gather_S65536x64_S2097152x1_S2097152x64_1_0_n_n_0_1_164_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S8192x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S8192x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S8192x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S8192x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v96) S8192x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v98) S8192x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v98) S8192x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v99) S8192x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v112) S8192x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v113) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v114) S8192x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v114) S8192x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v115) S8192x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v128) S8192x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v129) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v130) S8192x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v139) S8192x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v148) S8192x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v149) S8192x1.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S65536x32 : Shape := ⟨2, ![65536, 32]⟩
abbrev S2x1048576 : Shape := ⟨2, ![2, 1048576]⟩
abbrev S1048576 : Shape := ⟨1, ![1048576]⟩
abbrev S2x2097152 : Shape := ⟨2, ![2, 2097152]⟩
abbrev S32x64 : Shape := ⟨2, ![32, 64]⟩
abbrev S64 : Shape := ⟨1, ![64]⟩
abbrev S64x64 : Shape := ⟨2, ![64, 64]⟩
abbrev S1x1048576 : Shape := ⟨2, ![1, 1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S65536x64 : Shape := ⟨2, ![65536, 64]⟩
abbrev S1114112x64 : Shape := ⟨2, ![1114112, 64]⟩
abbrev S1x64 : Shape := ⟨2, ![1, 64]⟩
abbrev S1x2097152 : Shape := ⟨2, ![1, 2097152]⟩
abbrev S2097152 : Shape := ⟨1, ![2097152]⟩
abbrev S2097152x1 : Shape := ⟨2, ![2097152, 1]⟩
abbrev S2097152x64 : Shape := ⟨2, ![2097152, 64]⟩

abbrev nBuf : Space → Nat
  | .hbm => 225
  | .vmem => 0
  | .smem => 0
  | _ => 0

abbrev hbmTy0_0 (i : Nat) : BufTy := match i % 128 with
  | 0 => ⟨S65536x32, .f32⟩
  | 1 => ⟨S2x1048576, .i32⟩
  | 2 => ⟨S1048576, .f32⟩
  | 3 => ⟨S2x2097152, .i32⟩
  | 4 => ⟨S32x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S1x1048576, .i32⟩
  | 17 => ⟨S1048576, .i32⟩
  | 18 => ⟨S1x1048576, .i32⟩
  | 19 => ⟨S1048576, .i32⟩
  | 20 => ⟨S65536, .i32⟩
  | 21 => ⟨S1114112, .i32⟩
  | 22 => ⟨S1114112, .i32⟩
  | 23 => ⟨S_, .f32⟩
  | 24 => ⟨S65536, .f32⟩
  | 25 => ⟨S1114112, .f32⟩
  | 26 => ⟨S_, .f32⟩
  | 27 => ⟨S65536, .f32⟩
  | 28 => ⟨S1114112x1, .i32⟩
  | 29 => ⟨S65536, .f32⟩
  | 30 => ⟨S_, .f32⟩
  | 31 => ⟨S65536, .f32⟩
  | 32 => ⟨S65536, .i1⟩
  | 33 => ⟨S_, .f32⟩
  | 34 => ⟨S65536, .f32⟩
  | 35 => ⟨S65536, .i1⟩
  | 36 => ⟨S_, .f32⟩
  | 37 => ⟨S_, .f32⟩
  | 38 => ⟨S65536, .f32⟩
  | 39 => ⟨S65536, .f32⟩
  | 40 => ⟨S65536, .f32⟩
  | 41 => ⟨S_, .f32⟩
  | 42 => ⟨S_, .f32⟩
  | 43 => ⟨S65536, .f32⟩
  | 44 => ⟨S65536, .f32⟩
  | 45 => ⟨S_, .i32⟩
  | 46 => ⟨S1114112, .i32⟩
  | 47 => ⟨S1114112, .i1⟩
  | 48 => ⟨S_, .i32⟩
  | 49 => ⟨S1114112, .i32⟩
  | 50 => ⟨S1114112, .i32⟩
  | 51 => ⟨S1114112, .i32⟩
  | 52 => ⟨S1114112x1, .i32⟩
  | 53 => ⟨S1114112, .f32⟩
  | 54 => ⟨S1114112, .f32⟩
  | 55 => ⟨S_, .i32⟩
  | 56 => ⟨S1114112, .i32⟩
  | 57 => ⟨S1114112, .i1⟩
  | 58 => ⟨S_, .i32⟩
  | 59 => ⟨S1114112, .i32⟩
  | 60 => ⟨S1114112, .i32⟩
  | 61 => ⟨S1114112, .i32⟩
  | 62 => ⟨S1114112x1, .i32⟩
  | 63 => ⟨S1114112, .f32⟩
  | 64 => ⟨S1114112, .f32⟩
  | 65 => ⟨S65536x64, .f32⟩
  | 66 => ⟨S1114112x1, .f32⟩
  | 67 => ⟨S_, .i32⟩
  | 68 => ⟨S1114112, .i32⟩
  | 69 => ⟨S1114112, .i1⟩
  | 70 => ⟨S_, .i32⟩
  | 71 => ⟨S1114112, .i32⟩
  | 72 => ⟨S1114112, .i32⟩
  | 73 => ⟨S1114112, .i32⟩
  | 74 => ⟨S1114112x1, .i32⟩
  | 75 => ⟨S1114112x64, .f32⟩
  | 76 => ⟨S1114112x64, .f32⟩
  | 77 => ⟨S1114112x64, .f32⟩
  | 78 => ⟨S_, .f32⟩
  | 79 => ⟨S65536x64, .f32⟩
  | 80 => ⟨S1114112x1, .i32⟩
  | 81 => ⟨S65536x64, .f32⟩
  | 82 => ⟨S1x64, .f32⟩
  | 83 => ⟨S65536x64, .f32⟩
  | 84 => ⟨S65536x64, .f32⟩
  | 85 => ⟨S_, .f32⟩
  | 86 => ⟨S65536x64, .f32⟩
  | 87 => ⟨S65536x64, .f32⟩
  | 88 => ⟨S65536x64, .f32⟩
  | 89 => ⟨S1114112x1, .f32⟩
  | 90 => ⟨S_, .i32⟩
  | 91 => ⟨S1114112, .i32⟩
  | 92 => ⟨S1114112, .i1⟩
  | 93 => ⟨S_, .i32⟩
  | 94 => ⟨S1114112, .i32⟩
  | 95 => ⟨S1114112, .i32⟩
  | 96 => ⟨S1114112, .i32⟩
  | 97 => ⟨S1114112x1, .i32⟩
  | 98 => ⟨S1114112x64, .f32⟩
  | 99 => ⟨S1114112x64, .f32⟩
  | 100 => ⟨S1114112x64, .f32⟩
  | 101 => ⟨S_, .f32⟩
  | 102 => ⟨S65536x64, .f32⟩
  | 103 => ⟨S1114112x1, .i32⟩
  | 104 => ⟨S65536x64, .f32⟩
  | 105 => ⟨S1x64, .f32⟩
  | 106 => ⟨S65536x64, .f32⟩
  | 107 => ⟨S65536x64, .f32⟩
  | 108 => ⟨S_, .f32⟩
  | 109 => ⟨S65536x64, .f32⟩
  | 110 => ⟨S65536x64, .f32⟩
  | 111 => ⟨S65536x64, .f32⟩
  | 112 => ⟨S1114112x1, .f32⟩
  | 113 => ⟨S_, .i32⟩
  | 114 => ⟨S1114112, .i32⟩
  | 115 => ⟨S1114112, .i1⟩
  | 116 => ⟨S_, .i32⟩
  | 117 => ⟨S1114112, .i32⟩
  | 118 => ⟨S1114112, .i32⟩
  | 119 => ⟨S1114112, .i32⟩
  | 120 => ⟨S1114112x1, .i32⟩
  | 121 => ⟨S1114112x64, .f32⟩
  | 122 => ⟨S1114112x64, .f32⟩
  | 123 => ⟨S1114112x64, .f32⟩
  | 124 => ⟨S_, .f32⟩
  | 125 => ⟨S65536x64, .f32⟩
  | 126 => ⟨S1114112x1, .i32⟩
  | 127 => ⟨S65536x64, .f32⟩
  | _ => ⟨S65536x32, .f32⟩

abbrev hbmTy0_1 (i : Nat) : BufTy := match i % 128 with
  | 0 => ⟨S1x64, .f32⟩
  | 1 => ⟨S65536x64, .f32⟩
  | 2 => ⟨S65536x64, .f32⟩
  | 3 => ⟨S_, .f32⟩
  | 4 => ⟨S65536x64, .f32⟩
  | 5 => ⟨S65536x64, .f32⟩
  | 6 => ⟨S65536x64, .f32⟩
  | 7 => ⟨S1114112x1, .f32⟩
  | 8 => ⟨S_, .i32⟩
  | 9 => ⟨S1114112, .i32⟩
  | 10 => ⟨S1114112, .i1⟩
  | 11 => ⟨S_, .i32⟩
  | 12 => ⟨S1114112, .i32⟩
  | 13 => ⟨S1114112, .i32⟩
  | 14 => ⟨S1114112, .i32⟩
  | 15 => ⟨S1114112x1, .i32⟩
  | 16 => ⟨S1114112x64, .f32⟩
  | 17 => ⟨S1114112x64, .f32⟩
  | 18 => ⟨S1114112x64, .f32⟩
  | 19 => ⟨S_, .f32⟩
  | 20 => ⟨S65536x64, .f32⟩
  | 21 => ⟨S1114112x1, .i32⟩
  | 22 => ⟨S65536x64, .f32⟩
  | 23 => ⟨S1x64, .f32⟩
  | 24 => ⟨S65536x64, .f32⟩
  | 25 => ⟨S65536x64, .f32⟩
  | 26 => ⟨S_, .f32⟩
  | 27 => ⟨S65536x64, .f32⟩
  | 28 => ⟨S65536x64, .f32⟩
  | 29 => ⟨S65536x64, .f32⟩
  | 30 => ⟨S1114112x1, .f32⟩
  | 31 => ⟨S_, .i32⟩
  | 32 => ⟨S1114112, .i32⟩
  | 33 => ⟨S1114112, .i1⟩
  | 34 => ⟨S_, .i32⟩
  | 35 => ⟨S1114112, .i32⟩
  | 36 => ⟨S1114112, .i32⟩
  | 37 => ⟨S1114112, .i32⟩
  | 38 => ⟨S1114112x1, .i32⟩
  | 39 => ⟨S1114112x64, .f32⟩
  | 40 => ⟨S1114112x64, .f32⟩
  | 41 => ⟨S1114112x64, .f32⟩
  | 42 => ⟨S_, .f32⟩
  | 43 => ⟨S65536x64, .f32⟩
  | 44 => ⟨S1114112x1, .i32⟩
  | 45 => ⟨S65536x64, .f32⟩
  | 46 => ⟨S1x64, .f32⟩
  | 47 => ⟨S65536x64, .f32⟩
  | 48 => ⟨S65536x64, .f32⟩
  | 49 => ⟨S_, .f32⟩
  | 50 => ⟨S65536x64, .f32⟩
  | 51 => ⟨S65536x64, .f32⟩
  | 52 => ⟨S65536x64, .f32⟩
  | 53 => ⟨S1114112x1, .f32⟩
  | 54 => ⟨S_, .i32⟩
  | 55 => ⟨S1114112, .i32⟩
  | 56 => ⟨S1114112, .i1⟩
  | 57 => ⟨S_, .i32⟩
  | 58 => ⟨S1114112, .i32⟩
  | 59 => ⟨S1114112, .i32⟩
  | 60 => ⟨S1114112, .i32⟩
  | 61 => ⟨S1114112x1, .i32⟩
  | 62 => ⟨S1114112x64, .f32⟩
  | 63 => ⟨S1114112x64, .f32⟩
  | 64 => ⟨S1114112x64, .f32⟩
  | 65 => ⟨S_, .f32⟩
  | 66 => ⟨S65536x64, .f32⟩
  | 67 => ⟨S1114112x1, .i32⟩
  | 68 => ⟨S65536x64, .f32⟩
  | 69 => ⟨S1x64, .f32⟩
  | 70 => ⟨S65536x64, .f32⟩
  | 71 => ⟨S65536x64, .f32⟩
  | 72 => ⟨S1x2097152, .i32⟩
  | 73 => ⟨S2097152, .i32⟩
  | 74 => ⟨S_, .i32⟩
  | 75 => ⟨S2097152, .i32⟩
  | 76 => ⟨S2097152, .i1⟩
  | 77 => ⟨S_, .i32⟩
  | 78 => ⟨S2097152, .i32⟩
  | 79 => ⟨S2097152, .i32⟩
  | 80 => ⟨S2097152, .i32⟩
  | 81 => ⟨S2097152x1, .i32⟩
  | 82 => ⟨S2097152x64, .f32⟩
  | 83 => ⟨S1x2097152, .i32⟩
  | 84 => ⟨S2097152, .i32⟩
  | 85 => ⟨S_, .i32⟩
  | 86 => ⟨S2097152, .i32⟩
  | 87 => ⟨S2097152, .i1⟩
  | 88 => ⟨S_, .i32⟩
  | 89 => ⟨S2097152, .i32⟩
  | 90 => ⟨S2097152, .i32⟩
  | 91 => ⟨S2097152, .i32⟩
  | 92 => ⟨S2097152x1, .i32⟩
  | 93 => ⟨S2097152x64, .f32⟩
  | 94 => ⟨S2097152x64, .f32⟩
  | 95 => ⟨S_, .f32⟩
  | 96 => ⟨S2097152, .f32⟩
  | _ => ⟨S65536x32, .f32⟩

abbrev hbmTy (i : Nat) : BufTy := match i / 128 with
  | 0 => hbmTy0_0 i
  | 1 => hbmTy0_1 i
  | _ => ⟨S65536x32, .f32⟩

abbrev bufTy : (tb : Table) → Fin (tcTables nBuf tb) → BufTy
  | .hbm, ⟨i, _⟩ => hbmTy i
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call2_cst : Ref sig .tc := ⟨.hbm, 85, rfl⟩
abbrev main_call2_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_c_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call3_cst : Ref sig .tc := ⟨.hbm, 108, rfl⟩
abbrev main_call3_v0 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_14 : Ref sig .tc := ⟨.hbm, 113, rfl⟩
abbrev main_v73 : Ref sig .tc := ⟨.hbm, 114, rfl⟩
abbrev main_v74 : Ref sig .tc := ⟨.hbm, 115, rfl⟩
abbrev main_c_15 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_16 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_call4_cst : Ref sig .tc := ⟨.hbm, 131, rfl⟩
abbrev main_call4_v0 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_17 : Ref sig .tc := ⟨.hbm, 136, rfl⟩
abbrev main_v91 : Ref sig .tc := ⟨.hbm, 137, rfl⟩
abbrev main_v92 : Ref sig .tc := ⟨.hbm, 138, rfl⟩
abbrev main_c_18 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_19 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_call5_cst : Ref sig .tc := ⟨.hbm, 154, rfl⟩
abbrev main_call5_v0 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_20 : Ref sig .tc := ⟨.hbm, 159, rfl⟩
abbrev main_v109 : Ref sig .tc := ⟨.hbm, 160, rfl⟩
abbrev main_v110 : Ref sig .tc := ⟨.hbm, 161, rfl⟩
abbrev main_c_21 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_22 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_call6_cst : Ref sig .tc := ⟨.hbm, 177, rfl⟩
abbrev main_call6_v0 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_23 : Ref sig .tc := ⟨.hbm, 182, rfl⟩
abbrev main_v127 : Ref sig .tc := ⟨.hbm, 183, rfl⟩
abbrev main_v128 : Ref sig .tc := ⟨.hbm, 184, rfl⟩
abbrev main_c_24 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_25 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_c_26 : Ref sig .tc := ⟨.hbm, 202, rfl⟩
abbrev main_v144 : Ref sig .tc := ⟨.hbm, 203, rfl⟩
abbrev main_v145 : Ref sig .tc := ⟨.hbm, 204, rfl⟩
abbrev main_c_27 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_c_28 : Ref sig .tc := ⟨.hbm, 213, rfl⟩
abbrev main_v153 : Ref sig .tc := ⟨.hbm, 214, rfl⟩
abbrev main_v154 : Ref sig .tc := ⟨.hbm, 215, rfl⟩
abbrev main_c_29 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_30 : Ref sig .tc := ⟨.hbm, 223, rfl⟩
abbrev main_v161 : Ref sig .tc := ⟨.hbm, 224, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  slices_S2x2097152_S1x2097152_0_0 : S2x2097152.Slices ![0, 0] S1x2097152
  shapeCasts_S1x2097152_S2097152 : S1x2097152.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2x2097152_S1x2097152_1_0 : S2x2097152.Slices ![1, 0] S1x2097152
  reducesTo_S2097152x64_S2097152_d1 : S2097152x64.ReducesTo [1] S2097152
  h_S_ : 0 < S_.numel
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x32_S32x64_S65536x64_1_0_0_1_n_n_wf : DotDims.WF S65536x32 S32x64 S65536x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S65536x64_S64x64_S65536x64_1_0_0_1_n_n_wf : DotDims.WF S65536x64 S64x64 S65536x64 [1] [0] [0] [1] [] []
  gather_S65536x64_S2097152x1_S2097152x64_1_0_n_n_0_1_164_wf : GatherDims.WF S65536x64 S2097152x1 S2097152x64 [1] [0] [] [0] [] 1 ![1, 64]

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S2097152x1_S2097152x64_1_0_n_n_0_1_164 : GatherDims S65536x64 S2097152x1 S2097152x64 where
  offsetDims := [1]
  collapsedSliceDims := [0]
  operandBatchingDims := []
  startIndicesBatchingDims := []
  startIndexMap := [0]
  indexVectorDim := 1
  sliceSizes := ![1, 64]
  wf := gather_S65536x64_S2097152x1_S2097152x64_1_0_n_n_0_1_164_wf

class Facts : Prop extends Facts₀ where

variable [Facts]
-- ==== Proof.RunValue.lean ====
/-
  The idealized kernel's run with its result named: every weakly fair execution of the program terminates, without a
  fault, the argument arrays as launched and the result array holding what the last boundary's contents give it — the
  fold of the program's twenty-six segments (thirteen stretches of host operations, thirteen regions) from the launch
  memory, read at the result's buffer. This is the several-region launch theorem applied to the generated segments, the
  final state read at every unscoped buffer; the frame statement keeps only the arguments of that reading, this one
  keeps the result as well.
-/
import proofs.«128295_j72739566125683_2_alg».proof.Proof.Gen.KernelIdeal.Frame

set_option maxRecDepth 16384

noncomputable section

namespace Cert.Gcn.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result named by the last boundary's contents. -/
theorem run_named : θ_run defs (onTc (τ := τ) (main (F := F))) ⟨m, fun _ => 0, ρ⟩ (fun r => ∀ c : Dev nD,
      r.2.mem ((c.tc : Thread nD τ).loc main_v150) = W26 m ρ c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v150 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c)⟩)

end Cert.Gcn.RunValue
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.Spec.lean ====
/-
  The whole-array functions the thirteen kernels compute, over the arrays' full extents: a feature transform is the host's
  plain product of all node rows with the weight matrix; a bias step adds the bias of a feature to every node's entry
  (and clamps at zero in the first five layers); the decode step sums, per labelled pair, the products of the two
  gathered rows over the 64 features.
-/
import Idealize.ShloMosaic.Lib.ValueIdx
import Idealize.ShloMosaic.PureOps.Ideal.Laws
import proofs.«128295_j72739566125683_2_alg».proof.ReferenceIdeal
import proofs.«128295_j72739566125683_2_alg».proof.Proof.Gen.ReferenceIdeal
import proofs.«128295_j72739566125683_2_alg».proof.Proof.LibPlainDot

noncomputable section

open scoped BigOperators

namespace Cert.Gcn.Spec

open Idealize.ShloMosaic Idealize.ShloMosaic.ValueIdx Cert.Gcn.PlainDot Cert.ReferenceIdeal Cert.ReferenceIdeal.Gen

/-- The reference's product of the node features with the first weight matrix is a plain product. -/
theorem plain_ref32 : IsPlain dot_S65536x32_S32x64_S65536x64_1_0_0_1_n_n := ⟨rfl, rfl, rfl, rfl, rfl, rfl, rfl, rfl⟩
/-- The reference's product of hidden features with a later weight matrix is a plain product. -/
theorem plain_ref64 : IsPlain dot_S65536x64_S64x64_S65536x64_1_0_0_1_n_n := ⟨rfl, rfl, rfl, rfl, rfl, rfl, rfl, rfl⟩

/-- First layer's transform of all nodes. -/
def lin32 (x : FVec Ideal S65536x32 .f32) (w : FVec Ideal S32x64 .f32) : FVec Ideal S65536x64 .f32 :=
  Host.dotGeneral dot_S65536x32_S32x64_S65536x64_1_0_0_1_n_n none x w

/-- A later layer's transform of all nodes. -/
def lin64 (x : FVec Ideal S65536x64 .f32) (w : FVec Ideal S64x64 .f32) : FVec Ideal S65536x64 .f32 :=
  Host.dotGeneral dot_S65536x64_S64x64_S65536x64_1_0_0_1_n_n none x w

/-- Bias of the feature added to every node's entry, clamped at zero. -/
def biasrelu (x : FVec Ideal S65536x64 .f32) (brow : FVec Ideal S1x64 .f32) : FVec Ideal S65536x64 .f32 :=
  fun i => max (x i + brow (ix2 (0 : Fin 1) (⟨(i 1).val, (i 1).isLt⟩ : Fin 64))) (Ideal.ofBits .f32 0x00000000#32)

/-- Bias of the feature added to every node's entry. -/
def bias (x : FVec Ideal S65536x64 .f32) (brow : FVec Ideal S1x64 .f32) : FVec Ideal S65536x64 .f32 :=
  fun i => x i + brow (ix2 (0 : Fin 1) (⟨(i 1).val, (i 1).isLt⟩ : Fin 64))

/-- Per labelled pair, the sum over the features of the products of the two gathered rows, as a column. -/
def mulreduce (e0 e1 : FVec Ideal S2097152x64 .f32) : FVec Ideal S2097152x1 .f32 :=
  fun i => ∑ k : Fin 64, e0 (ix2 (⟨(i 0).val, (i 0).isLt⟩ : Fin 2097152) k) * e1 (ix2 (⟨(i 0).val, (i 0).isLt⟩ : Fin 2097152) k)

end Cert.Gcn.Spec
-- ==== Proof.LibColumnVector.lean ====
/-
  A column [a, 1] reshaped to a vector [a], for any extent: the vector's entry i is the column's entry of row i (the
  reshape drops the trailing unit axis; in row-major order (i, 0) and i are the same position).
-/
import Idealize.ShloMosaic.Lib.ValueIdx
import Idealize.ShloMosaic.Lib.Pipeline.Value

namespace Cert.Gcn.ColumnVector

open Idealize.ShloMosaic Idealize.ShloMosaic.ValueIdx

/-- A column [a, 1] cast to a vector [a] reads, at i, the column's entry of row i. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Gcn.ColumnVector
-- ==== Proof.Bridges.lean ====
/-
  The reference's host operations for a bias step and for the decode step, read at an index, against the whole-array
  functions of the kernels: the reference adds the bias through two broadcasts ([64] to [1, 64] to [65536, 64]) where the
  kernel's bias row is the [64] array reshaped to [1, 64] — both read the bias of the entry's feature —, clamps against a
  broadcast zero, and sums the products of the gathered rows over the feature axis starting from zero, where the kernel
  leaves the same sum in a column that the host then reshapes to a vector.
-/
import Idealize.ShloMosaic.Lib.ValueIdx
import Idealize.ShloMosaic.Lib.ValueLayout
import Idealize.ShloMosaic.Lib.Pipeline.Value
import Idealize.ShloMosaic.PureOps.Ideal.Laws
import proofs.«128295_j72739566125683_2_alg».proof.Proof.Gen.ReferenceIdeal.Read
import proofs.«128295_j72739566125683_2_alg».proof.Proof.Spec
import proofs.«128295_j72739566125683_2_alg».proof.Proof.LibColumnVector

noncomputable section

open scoped BigOperators

namespace Cert.Gcn.Bridges

open Idealize.ShloMosaic Idealize.ShloMosaic.ValueIdx Cert.ReferenceIdeal Cert.ReferenceIdeal.Gen Cert.ReferenceIdeal.Read

/-- The bias of feature c, read through the reference's two broadcasts at (r, c) and through the reshaped row at (0, c). -/
theorem bias_entry (b : FVec Ideal S64 .f32) (h : S64.ShapeCasts S1x64) (i : S65536x64.Idx) :
    shapeCast S1x64 b h (ix2 (0 : Fin 1) (⟨(i 1).val, (i 1).isLt⟩ : Fin 64)) = val_main_v50 (F := Ideal) b i := by
  rw [val_main_v50_apply, val_main_v49_apply]
  refine (shapeCast_a_1a_apply b h (0 : Fin 1) (⟨(i 1).val, (i 1).isLt⟩ : Fin 64)).trans ?_
  exact congrArg b (funext fun a => Fin.ext (by match a with | ⟨0, _⟩ => rfl))

/-- The reference's broadcast zero at an index is the zero word's value. -/
theorem zero_entry (i : S65536x64.Idx) : val_main_call2_v0 (F := Ideal) i = Ideal.ofBits .f32 0x00000000#32 := by
  rw [val_main_call2_v0_apply]; rfl

/-- The clamped bias step of the whole array is the reference's add-then-maximum over its broadcasts. -/
theorem biasrelu_ref (X : FVec Ideal S65536x64 .f32) (b : FVec Ideal S64 .f32) (h : S64.ShapeCasts S1x64) :
    Cert.Gcn.Spec.biasrelu X (shapeCast S1x64 b h)
      = maximumf (addf X (broadcastInDim S65536x64 ![0, 1] bcast_S1x64_S65536x64_0_1 (broadcastInDim S1x64 ![1] bcast_S64_S1x64_1 b)))
          (broadcastInDim S65536x64 ![] bcast_S_S65536x64 (constant S_ .f32 0x00000000#32)) := by
  funext i
  show max (X i + shapeCast S1x64 b h (ix2 (0 : Fin 1) (⟨(i 1).val, (i 1).isLt⟩ : Fin 64))) (Ideal.ofBits .f32 0x00000000#32)
    = max (X i + val_main_v50 (F := Ideal) b i) (val_main_call2_v0 (F := Ideal) i)
  rw [bias_entry b h i, zero_entry i]

/-- The unclamped bias step of the whole array is the reference's add over its broadcasts. -/
theorem bias_ref (X : FVec Ideal S65536x64 .f32) (b : FVec Ideal S64 .f32) (h : S64.ShapeCasts S1x64) :
    Cert.Gcn.Spec.bias X (shapeCast S1x64 b h)
      = addf X (broadcastInDim S65536x64 ![0, 1] bcast_S1x64_S65536x64_0_1 (broadcastInDim S1x64 ![1] bcast_S64_S1x64_1 b)) := by
  funext i
  show X i + shapeCast S1x64 b h (ix2 (0 : Fin 1) (⟨(i 1).val, (i 1).isLt⟩ : Fin 64)) = X i + val_main_v50 (F := Ideal) b i
  rw [bias_entry b h i]

/-- The decode column reshaped to a vector is the reference's sum over the feature axis of the products, from zero. -/
theorem mulreduce_ref (E0 E1 : FVec Ideal S2097152x64 .f32) (h : S2097152x1.ShapeCasts S2097152) :
    shapeCast S2097152 (Cert.Gcn.Spec.mulreduce E0 E1) h
      = Host.reduceAdd (mulf E0 E1) (constant S_ .f32 0x00000000#32) reducesTo_S2097152x64_S2097152_d1 h_S_ := by
  funext i
  obtain ⟨r, rfl⟩ : ∃ r : Fin 2097152, i = ix1 r := ⟨i 0, eq_ix1 i⟩
  refine (Cert.Gcn.ColumnVector.shapeCast_a1_a_apply (Cert.Gcn.Spec.mulreduce E0 E1) h r).trans ?_
  simp only [Host.reduceAdd, Ideal.hostReduceAdd_def]
  have hR : S2097152x64.Reduces [(1 : Fin 2)] S2097152 := by decide
  rw [Ideal.hostReduceAdd_single reducesTo_S2097152x64_S2097152_d1 hR]
  show (∑ k : Fin 64, E0 (ix2 r k) * E1 (ix2 r k)) = Ideal.ofBits .f32 0x00000000#32 + _
  rw [Ideal.ofBits_zero_f32, zero_add]
  refine Finset.sum_congr rfl fun k _ => ?_
  show E0 (ix2 r k) * E1 (ix2 r k) = E0 _ * E1 _
  have e : (hR.lift (ix1 r) k) = ix2 r k := funext fun a => Fin.ext (by
    match a with
    | ⟨0, _⟩ => rfl
    | ⟨1, _⟩ => rfl)
  rw [e]

end Cert.Gcn.Bridges
-- ==== Proof.Keep.lean ====
/-
  Which buffers the program leaves alone. The sixteen argument arrays are written by no host operation and by no
  region (a region writes only its output array), so at every boundary between two segments of the program they hold
  what they held at launch. The three arrays the prologue computes once for all six layers — the source indices and the
  target indices with the self loops appended, and the normalised edge weights — are written only there, so they are
  the same at every later boundary.
-/
import proofs.«128295_j72739566125683_2_alg».proof.Proof.Gen.KernelIdeal.Frame
import Idealize.ShloMosaic.PureOps.Ideal

set_option maxRecDepth 16384
-- the prologue's five stretches are walked one after the other, some fifty operations for each of the sixteen arrays
set_option maxHeartbeats 4000000

noncomputable section

namespace Cert.Gcn.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The argument arrays. -/
def Args : List (Ref sig .tc) :=
  [main_arg0, main_arg1, main_arg2, main_arg3, main_arg4, main_arg5, main_arg6, main_arg7, main_arg8, main_arg9,
   main_arg10, main_arg11, main_arg12, main_arg13, main_arg14, main_arg15]

/-- The prologue's three arrays every layer reads: source indices, target indices, normalised weights. -/
def Pro : List (Ref sig .tc) := [main_v5, main_v6, main_v34]

/-- Split a membership in the argument list into its sixteen cases. -/
macro "args_cases" h:ident : tactic =>
  `(tactic| (simp only [Args, List.mem_cons, List.mem_nil_iff, or_false] at $h:ident
             rcases $h:ident with $h:ident | $h:ident | $h:ident | $h:ident | $h:ident | $h:ident | $h:ident | $h:ident | $h:ident | $h:ident | $h:ident | $h:ident | $h:ident | $h:ident | $h:ident | $h:ident <;> subst $h:ident))
/-- Split a membership in the prologue's list into its three cases. -/
macro "pro_cases" h:ident : tactic =>
  `(tactic| (simp only [Pro, List.mem_cons, List.mem_nil_iff, or_false] at $h:ident
             rcases $h:ident with $h:ident | $h:ident | $h:ident <;> subst $h:ident))

/-- A host stretch leaves alone every buffer none of its operations writes. -/
macro "host_keeps" : tactic => `(tactic| (show StableHlo.after _ _ _ = _; after_results_simp))

/-! ## The argument arrays, boundary by boundary -/

theorem args0 : ∀ b ∈ Args, W0 m ρ c (Proc.devRef .tc b) = m ((c : Thread nD τ).loc b) := fun _ _ => rfl
theorem args1 : ∀ b ∈ Args, W1 m ρ c (Proc.devRef .tc b) = m ((c : Thread nD τ).loc b) := fun b hb =>
  Eq.trans (by args_cases hb <;> host_keeps) (args0 m ρ c b hb)
theorem args2 : ∀ b ∈ Args, W2 m ρ c (Proc.devRef .tc b) = m ((c : Thread nD τ).loc b) := fun b hb =>
  Eq.trans (by args_cases hb <;> host_keeps) (args1 m ρ c b hb)
theorem args3 : ∀ b ∈ Args, W3 m ρ c (Proc.devRef .tc b) = m ((c : Thread nD τ).loc b) := fun b hb =>
  Eq.trans (by args_cases hb <;> host_keeps) (args2 m ρ c b hb)
theorem args4 : ∀ b ∈ Args, W4 m ρ c (Proc.devRef .tc b) = m ((c : Thread nD τ).loc b) := fun b hb =>
  Eq.trans (by args_cases hb <;> host_keeps) (args3 m ρ c b hb)
theorem args5 : ∀ b ∈ Args, W5 m ρ c (Proc.devRef .tc b) = m ((c : Thread nD τ).loc b) := fun b hb =>
  Eq.trans (by args_cases hb <;> host_keeps) (args4 m ρ c b hb)
theorem args6 : ∀ b ∈ Args, W6 m ρ c (Proc.devRef .tc b) = m ((c : Thread nD τ).loc b) := fun b hb =>
  Eq.trans (by args_cases hb <;> first
      | exact W6_of_ne m ρ c _ (by decide)
      | exact (W6_arr m ρ c 0).trans (((dat0 (V5 m ρ) c).arrAt_in 0 rfl _).trans (A_eq0 (V5 m ρ) c 0))
      | exact (W6_arr m ρ c 1).trans (((dat0 (V5 m ρ) c).arrAt_in 1 rfl _).trans (A_eq0 (V5 m ρ) c 1))) (args5 m ρ c b hb)
theorem args7 : ∀ b ∈ Args, W7 m ρ c (Proc.devRef .tc b) = m ((c : Thread nD τ).loc b) := fun b hb =>
  Eq.trans (by args_cases hb <;> host_keeps) (args6 m ρ c b hb)
theorem args8 : ∀ b ∈ Args, W8 m ρ c (Proc.devRef .tc b) = m ((c : Thread nD τ).loc b) := fun b hb =>
  Eq.trans (by args_cases hb <;> first
      | exact W8_of_ne m ρ c _ (by decide)
      | exact (W8_arr m ρ c 0).trans (((dat1 (V7 m ρ) c).arrAt_in 0 rfl _).trans (A_eq1 (V7 m ρ) c 0))
      | exact (W8_arr m ρ c 1).trans (((dat1 (V7 m ρ) c).arrAt_in 1 rfl _).trans (A_eq1 (V7 m ρ) c 1))) (args7 m ρ c b hb)
theorem args9 : ∀ b ∈ Args, W9 m ρ c (Proc.devRef .tc b) = m ((c : Thread nD τ).loc b) := fun b hb =>
  Eq.trans (by args_cases hb <;> first
      | exact W9_of_ne m ρ c _ (by decide)
      | exact (W9_arr m ρ c 0).trans (((dat2 (V8 m ρ) c).arrAt_in 0 rfl _).trans (A_eq2 (V8 m ρ) c 0))
      | exact (W9_arr m ρ c 1).trans (((dat2 (V8 m ρ) c).arrAt_in 1 rfl _).trans (A_eq2 (V8 m ρ) c 1))) (args8 m ρ c b hb)
theorem args10 : ∀ b ∈ Args, W10 m ρ c (Proc.devRef .tc b) = m ((c : Thread nD τ).loc b) := fun b hb =>
  Eq.trans (by args_cases hb <;> host_keeps) (args9 m ρ c b hb)
theorem args11 : ∀ b ∈ Args, W11 m ρ c (Proc.devRef .tc b) = m ((c : Thread nD τ).loc b) := fun b hb =>
  Eq.trans (by args_cases hb <;> first
      | exact W11_of_ne m ρ c _ (by decide)
      | exact (W11_arr m ρ c 0).trans (((dat3 (V10 m ρ) c).arrAt_in 0 rfl _).trans (A_eq3 (V10 m ρ) c 0))
      | exact (W11_arr m ρ c 1).trans (((dat3 (V10 m ρ) c).arrAt_in 1 rfl _).trans (A_eq3 (V10 m ρ) c 1))) (args10 m ρ c b hb)
theorem args12 : ∀ b ∈ Args, W12 m ρ c (Proc.devRef .tc b) = m ((c : Thread nD τ).loc b) := fun b hb =>
  Eq.trans (by args_cases hb <;> first
      | exact W12_of_ne m ρ c _ (by decide)
      | exact (W12_arr m ρ c 0).trans (((dat4 (V11 m ρ) c).arrAt_in 0 rfl _).trans (A_eq4 (V11 m ρ) c 0))
      | exact (W12_arr m ρ c 1).trans (((dat4 (V11 m ρ) c).arrAt_in 1 rfl _).trans (A_eq4 (V11 m ρ) c 1))) (args11 m ρ c b hb)
theorem args13 : ∀ b ∈ Args, W13 m ρ c (Proc.devRef .tc b) = m ((c : Thread nD τ).loc b) := fun b hb =>
  Eq.trans (by args_cases hb <;> host_keeps) (args12 m ρ c b hb)
theorem args14 : ∀ b ∈ Args, W14 m ρ c (Proc.devRef .tc b) = m ((c : Thread nD τ).loc b) := fun b hb =>
  Eq.trans (by args_cases hb <;> first
      | exact W14_of_ne m ρ c _ (by decide)
      | exact (W14_arr m ρ c 0).trans (((dat5 (V13 m ρ) c).arrAt_in 0 rfl _).trans (A_eq5 (V13 m ρ) c 0))
      | exact (W14_arr m ρ c 1).trans (((dat5 (V13 m ρ) c).arrAt_in 1 rfl _).trans (A_eq5 (V13 m ρ) c 1))) (args13 m ρ c b hb)
theorem args15 : ∀ b ∈ Args, W15 m ρ c (Proc.devRef .tc b) = m ((c : Thread nD τ).loc b) := fun b hb =>
  Eq.trans (by args_cases hb <;> first
      | exact W15_of_ne m ρ c _ (by decide)
      | exact (W15_arr m ρ c 0).trans (((dat6 (V14 m ρ) c).arrAt_in 0 rfl _).trans (A_eq6 (V14 m ρ) c 0))
      | exact (W15_arr m ρ c 1).trans (((dat6 (V14 m ρ) c).arrAt_in 1 rfl _).trans (A_eq6 (V14 m ρ) c 1))) (args14 m ρ c b hb)
theorem args16 : ∀ b ∈ Args, W16 m ρ c (Proc.devRef .tc b) = m ((c : Thread nD τ).loc b) := fun b hb =>
  Eq.trans (by args_cases hb <;> host_keeps) (args15 m ρ c b hb)
theorem args17 : ∀ b ∈ Args, W17 m ρ c (Proc.devRef .tc b) = m ((c : Thread nD τ).loc b) := fun b hb =>
  Eq.trans (by args_cases hb <;> first
      | exact W17_of_ne m ρ c _ (by decide)
      | exact (W17_arr m ρ c 0).trans (((dat7 (V16 m ρ) c).arrAt_in 0 rfl _).trans (A_eq7 (V16 m ρ) c 0))
      | exact (W17_arr m ρ c 1).trans (((dat7 (V16 m ρ) c).arrAt_in 1 rfl _).trans (A_eq7 (V16 m ρ) c 1))) (args16 m ρ c b hb)
theorem args18 : ∀ b ∈ Args, W18 m ρ c (Proc.devRef .tc b) = m ((c : Thread nD τ).loc b) := fun b hb =>
  Eq.trans (by args_cases hb <;> first
      | exact W18_of_ne m ρ c _ (by decide)
      | exact (W18_arr m ρ c 0).trans (((dat8 (V17 m ρ) c).arrAt_in 0 rfl _).trans (A_eq8 (V17 m ρ) c 0))
      | exact (W18_arr m ρ c 1).trans (((dat8 (V17 m ρ) c).arrAt_in 1 rfl _).trans (A_eq8 (V17 m ρ) c 1))) (args17 m ρ c b hb)
theorem args19 : ∀ b ∈ Args, W19 m ρ c (Proc.devRef .tc b) = m ((c : Thread nD τ).loc b) := fun b hb =>
  Eq.trans (by args_cases hb <;> host_keeps) (args18 m ρ c b hb)
theorem args20 : ∀ b ∈ Args, W20 m ρ c (Proc.devRef .tc b) = m ((c : Thread nD τ).loc b) := fun b hb =>
  Eq.trans (by args_cases hb <;> first
      | exact W20_of_ne m ρ c _ (by decide)
      | exact (W20_arr m ρ c 0).trans (((dat9 (V19 m ρ) c).arrAt_in 0 rfl _).trans (A_eq9 (V19 m ρ) c 0))
      | exact (W20_arr m ρ c 1).trans (((dat9 (V19 m ρ) c).arrAt_in 1 rfl _).trans (A_eq9 (V19 m ρ) c 1))) (args19 m ρ c b hb)
theorem args21 : ∀ b ∈ Args, W21 m ρ c (Proc.devRef .tc b) = m ((c : Thread nD τ).loc b) := fun b hb =>
  Eq.trans (by args_cases hb <;> first
      | exact W21_of_ne m ρ c _ (by decide)
      | exact (W21_arr m ρ c 0).trans (((dat10 (V20 m ρ) c).arrAt_in 0 rfl _).trans (A_eq10 (V20 m ρ) c 0))
      | exact (W21_arr m ρ c 1).trans (((dat10 (V20 m ρ) c).arrAt_in 1 rfl _).trans (A_eq10 (V20 m ρ) c 1))) (args20 m ρ c b hb)
theorem args22 : ∀ b ∈ Args, W22 m ρ c (Proc.devRef .tc b) = m ((c : Thread nD τ).loc b) := fun b hb =>
  Eq.trans (by args_cases hb <;> host_keeps) (args21 m ρ c b hb)
theorem args23 : ∀ b ∈ Args, W23 m ρ c (Proc.devRef .tc b) = m ((c : Thread nD τ).loc b) := fun b hb =>
  Eq.trans (by args_cases hb <;> first
      | exact W23_of_ne m ρ c _ (by decide)
      | exact (W23_arr m ρ c 0).trans (((dat11 (V22 m ρ) c).arrAt_in 0 rfl _).trans (A_eq11 (V22 m ρ) c 0))
      | exact (W23_arr m ρ c 1).trans (((dat11 (V22 m ρ) c).arrAt_in 1 rfl _).trans (A_eq11 (V22 m ρ) c 1))) (args22 m ρ c b hb)

/-! ## The prologue's three arrays, from the first region's entry to the last layer's host stretch -/

theorem pro6 : ∀ b ∈ Pro, W6 m ρ c (Proc.devRef .tc b) = W5 m ρ c (Proc.devRef .tc b) := fun b hb => by
  pro_cases hb <;> exact W6_of_ne m ρ c _ (by decide)
theorem pro7 : ∀ b ∈ Pro, W7 m ρ c (Proc.devRef .tc b) = W5 m ρ c (Proc.devRef .tc b) := fun b hb =>
  Eq.trans (by pro_cases hb <;> host_keeps) (pro6 m ρ c b hb)
theorem pro8 : ∀ b ∈ Pro, W8 m ρ c (Proc.devRef .tc b) = W5 m ρ c (Proc.devRef .tc b) := fun b hb =>
  Eq.trans (by pro_cases hb <;> exact W8_of_ne m ρ c _ (by decide)) (pro7 m ρ c b hb)
theorem pro9 : ∀ b ∈ Pro, W9 m ρ c (Proc.devRef .tc b) = W5 m ρ c (Proc.devRef .tc b) := fun b hb =>
  Eq.trans (by pro_cases hb <;> exact W9_of_ne m ρ c _ (by decide)) (pro8 m ρ c b hb)
theorem pro10 : ∀ b ∈ Pro, W10 m ρ c (Proc.devRef .tc b) = W5 m ρ c (Proc.devRef .tc b) := fun b hb =>
  Eq.trans (by pro_cases hb <;> host_keeps) (pro9 m ρ c b hb)
theorem pro11 : ∀ b ∈ Pro, W11 m ρ c (Proc.devRef .tc b) = W5 m ρ c (Proc.devRef .tc b) := fun b hb =>
  Eq.trans (by pro_cases hb <;> exact W11_of_ne m ρ c _ (by decide)) (pro10 m ρ c b hb)
theorem pro12 : ∀ b ∈ Pro, W12 m ρ c (Proc.devRef .tc b) = W5 m ρ c (Proc.devRef .tc b) := fun b hb =>
  Eq.trans (by pro_cases hb <;> exact W12_of_ne m ρ c _ (by decide)) (pro11 m ρ c b hb)
theorem pro13 : ∀ b ∈ Pro, W13 m ρ c (Proc.devRef .tc b) = W5 m ρ c (Proc.devRef .tc b) := fun b hb =>
  Eq.trans (by pro_cases hb <;> host_keeps) (pro12 m ρ c b hb)
theorem pro14 : ∀ b ∈ Pro, W14 m ρ c (Proc.devRef .tc b) = W5 m ρ c (Proc.devRef .tc b) := fun b hb =>
  Eq.trans (by pro_cases hb <;> exact W14_of_ne m ρ c _ (by decide)) (pro13 m ρ c b hb)
theorem pro15 : ∀ b ∈ Pro, W15 m ρ c (Proc.devRef .tc b) = W5 m ρ c (Proc.devRef .tc b) := fun b hb =>
  Eq.trans (by pro_cases hb <;> exact W15_of_ne m ρ c _ (by decide)) (pro14 m ρ c b hb)
theorem pro16 : ∀ b ∈ Pro, W16 m ρ c (Proc.devRef .tc b) = W5 m ρ c (Proc.devRef .tc b) := fun b hb =>
  Eq.trans (by pro_cases hb <;> host_keeps) (pro15 m ρ c b hb)
theorem pro17 : ∀ b ∈ Pro, W17 m ρ c (Proc.devRef .tc b) = W5 m ρ c (Proc.devRef .tc b) := fun b hb =>
  Eq.trans (by pro_cases hb <;> exact W17_of_ne m ρ c _ (by decide)) (pro16 m ρ c b hb)
theorem pro18 : ∀ b ∈ Pro, W18 m ρ c (Proc.devRef .tc b) = W5 m ρ c (Proc.devRef .tc b) := fun b hb =>
  Eq.trans (by pro_cases hb <;> exact W18_of_ne m ρ c _ (by decide)) (pro17 m ρ c b hb)
theorem pro19 : ∀ b ∈ Pro, W19 m ρ c (Proc.devRef .tc b) = W5 m ρ c (Proc.devRef .tc b) := fun b hb =>
  Eq.trans (by pro_cases hb <;> host_keeps) (pro18 m ρ c b hb)
theorem pro20 : ∀ b ∈ Pro, W20 m ρ c (Proc.devRef .tc b) = W5 m ρ c (Proc.devRef .tc b) := fun b hb =>
  Eq.trans (by pro_cases hb <;> exact W20_of_ne m ρ c _ (by decide)) (pro19 m ρ c b hb)
theorem pro21 : ∀ b ∈ Pro, W21 m ρ c (Proc.devRef .tc b) = W5 m ρ c (Proc.devRef .tc b) := fun b hb =>
  Eq.trans (by pro_cases hb <;> exact W21_of_ne m ρ c _ (by decide)) (pro20 m ρ c b hb)

end Cert.Gcn.Keep
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.Tiles.lean ====
/-
  The arithmetic of one tile, at the exact values, for each of the program's five kernel bodies, as functions of the tile's
  loaded blocks read at an index (p, c) of the tile:
  * a feature transform: the tile of rows times the whole weight matrix, rounded operands (the rounding is the identity
    at the exact values), accumulated into zero — row p of the tile product is the product's row of the whole arrays;
  * a bias step: the aggregated rows plus the bias row, with or without the clamp at zero;
  * the decode step: the sum over the features of the products of two rows, kept as a column.
-/
import Idealize.ShloMosaic.Lib.ValueIdx
import Idealize.ShloMosaic.Lib.ValueLayout
import Idealize.ShloMosaic.Lib.Pipeline.Value
import Idealize.ShloMosaic.PureOps.Ideal.Laws
import proofs.«128295_j72739566125683_2_alg».proof.Proof.Gen.KernelIdeal.Skeleton
import proofs.«128295_j72739566125683_2_alg».proof.Proof.LibPlainDot
import proofs.«128295_j72739566125683_2_alg».proof.Proof.LibColumnLayout

noncomputable section

open scoped BigOperators

namespace Cert.Gcn.Tiles

open Idealize.ShloMosaic Idealize.ShloMosaic.ValueIdx Cert.Gcn.PlainDot Cert.KernelIdeal Cert.KernelIdeal.Gen

/-- The tile product's dimension numbers (8192 rows, 32 contracted) are those of a plain product. -/
theorem plain_tile32 : IsPlain dot_S8192x32_S32x64_S8192x64_1_0_0_1_n_n := ⟨rfl, rfl, rfl, rfl, rfl, rfl, rfl, rfl⟩
/-- The tile product's dimension numbers (8192 rows, 64 contracted) are those of a plain product. -/
theorem plain_tile64 : IsPlain dot_S8192x64_S64x64_S8192x64_1_0_0_1_n_n := ⟨rfl, rfl, rfl, rfl, rfl, rfl, rfl, rfl⟩

variable {M : ℕ}

/-- First layer's transform: row p of the tile's product is row r of the whole product, when row p of the tile of
    inputs is row r of the inputs and the tile of weights is the weights. -/
theorem lin32_at {d : DotDims ⟨2, ![M, 32]⟩ ⟨2, ![32, 64]⟩ ⟨2, ![M, 64]⟩} (hd : IsPlain d)
    (xb : Vec Ideal S8192x32 .f32) (wb : Vec Ideal S32x64 .f32)
    (x : FVec Ideal ⟨2, ![M, 32]⟩ .f32) (w : FVec Ideal ⟨2, ![32, 64]⟩ .f32) (p : Fin 8192) (r : Fin M) (c : Fin 64)
    (hx : ∀ k : Fin 32, xb (ix2 p k) = x (ix2 r k)) (hw : ∀ k : Fin 32, wb (ix2 k c) = w (ix2 k c)) :
    k0_pay1 (F := Ideal) xb wb (ix2 p c) = Host.dotGeneral d none x w (ix2 r c) := by
  unfold k0_pay1
  exact matmul_rows_eq_dotGeneral plain_tile32 hd none none _ _ x w p r c hx hw

/-- A later layer's transform, the same statement with 64 contracted features. -/
theorem lin64_at {d : DotDims ⟨2, ![M, 64]⟩ ⟨2, ![64, 64]⟩ ⟨2, ![M, 64]⟩} (hd : IsPlain d)
    (xb : Vec Ideal S8192x64 .f32) (wb : Vec Ideal S64x64 .f32)
    (x : FVec Ideal ⟨2, ![M, 64]⟩ .f32) (w : FVec Ideal ⟨2, ![64, 64]⟩ .f32) (p : Fin 8192) (r : Fin M) (c : Fin 64)
    (hx : ∀ k : Fin 64, xb (ix2 p k) = x (ix2 r k)) (hw : ∀ k : Fin 64, wb (ix2 k c) = w (ix2 k c)) :
    k2_pay1 (F := Ideal) xb wb (ix2 p c) = Host.dotGeneral d none x w (ix2 r c) := by
  unfold k2_pay1
  rw [shapeCast_self]
  exact matmul_rows_eq_dotGeneral plain_tile64 hd none none _ _ x w p r c hx hw

/-- The bias step with the clamp: at (p, c) the larger of zero and the aggregated entry plus the bias of feature c. -/
theorem biasrelu_at (xb : Vec Ideal S8192x64 .f32) (bb : Vec Ideal S1x64 .f32) (p : Fin 8192) (c : Fin 64) :
    k1_pay1 (F := Ideal) xb bb (ix2 p c) = max (xb (ix2 p c) + bb (ix2 (0 : Fin 1) c)) (Ideal.ofBits .f32 0x00000000#32) := by
  unfold k1_pay1
  rw [shapeCast_self, shapeCast_self, maximumf_apply, addf_apply, broadcastTo_1b_ab_apply]
  rfl

/-- The bias step without the clamp. -/
theorem bias_at (xb : Vec Ideal S8192x64 .f32) (bb : Vec Ideal S1x64 .f32) (p : Fin 8192) (c : Fin 64) :
    k11_pay1 (F := Ideal) xb bb (ix2 p c) = xb (ix2 p c) + bb (ix2 (0 : Fin 1) c) := by
  unfold k11_pay1
  rw [shapeCast_self, shapeCast_self, addf_apply, broadcastTo_1b_ab_apply]

/-- The decode step: at (p, 0) the sum over the 64 features of the products of the two rows p. -/
theorem mulreduce_at (eb0 eb1 : Vec Ideal S8192x64 .f32) (p : Fin 8192) (u : Fin 1) :
    k12_pay1 (F := Ideal) eb0 eb1 (ix2 p u) = ∑ k : Fin 64, eb0 (ix2 p k) * eb1 (ix2 p k) := by
  unfold k12_pay1
  rw [shapeCast_self, shapeCast_self]
  refine (Cert.Gcn.Layout.shapeCast_a_a1_apply _ shapeCasts_S8192_S8192x1 p u).trans ?_
  refine (Ideal.multiReduction_add_single (mulf eb0 eb1) 0x00000000#32 reduces_S8192x64_S8192 (.inl rfl) rfl (ix1 p)).trans ?_
  refine Finset.sum_congr rfl fun k _ => ?_
  show eb0 _ * eb1 _ = _
  have e : (reduces_S8192x64_S8192.lift (ix1 p) k) = ix2 p k := funext fun a => Fin.ext (by
    match a with
    | ⟨0, _⟩ => rfl
    | ⟨1, _⟩ => rfl)
  rw [e]
  rfl

end Cert.Gcn.Tiles
-- ==== Proof.Region0.lean ====
/-
  Region 0 (the first layer's feature transform, 32 input features): whatever the buffers hold when the region is entered, it leaves
  in its output array the plain product of its input array (all 65536 node rows) with its weight array. Point t of the
  grid holds rows 8192·t … 8192·t + 8191; row p of its tile product is row 8192·t + p of the whole product, and the
  eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal)
      (Cert.Gcn.Spec.lin32 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S8192x32) hz, View.ld_unit_zero (S := S32x64) hz]
  obtain ⟨e00, e01, e10, e11, e20, e21⟩ := idx_facts t
  have hN : t.val < 8 := lt_of_lt_of_eq t.isLt N_0
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg0.win 2).blk t).view.emb (ix2 p q) = ix2 (⟨t.val * 8192 + p.val, hr⟩ : Fin 65536) q := by
    funext a; apply Fin.ext
    match a with
    | ⟨0, _⟩ => show win0_2.index t (0 : Fin 2) * 8192 + 1 * p.val = t.val * 8192 + p.val; omega
    | ⟨1, _⟩ => show win0_2.index t (1 : Fin 2) * 64 + 1 * q.val = q.val; omega
  show k0_pay1 (iblk0 V c 0 t) (iblk0 V c 1 t) (ix2 p q) = Cert.Gcn.Spec.lin32 _ _ (((cfg0.win 2).blk t).view.emb (ix2 p q))
  rw [hemb]
  unfold Cert.Gcn.Spec.lin32
  refine Cert.Gcn.Tiles.lin32_at Cert.Gcn.Spec.plain_ref32 (iblk0 V c 0 t) (iblk0 V c 1 t)
    (V c (Pipeline.arrRef spec0 0)) (V c (Pipeline.arrRef spec0 1)) p ⟨t.val * 8192 + p.val, hr⟩ q (fun k => ?_) (fun k => ?_)
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 8192 + 1 * p.val = t.val * 8192 + p.val; omega
    | ⟨1, _⟩ => show win0_0.index t (1 : Fin 2) * 32 + 1 * k.val = k.val; omega
  · show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 32 + 1 * k.val = k.val; omega
    | ⟨1, _⟩ => show win0_1.index t (1 : Fin 2) * 64 + 1 * q.val = q.val; omega

/-- An index of the output array is in point t's block iff each coordinate is in the block's range on its axis. -/
theorem mem_blk (t : Fin cfg0.N) (i : S65536x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v35).slice (win0_2.rect t)).set ↔ _
  rw [View.set_slice_whole, Rect.mem_set_unit]
  exact Iff.rfl

/-- Every index of the output array lies in the block of the point its row's quotient by 8192 names. -/
theorem cover (i : S65536x64.Idx) : ∃ t : Fin cfg0.N, (cfg0.win 2).flush t = true ∧ i ∈ ((cfg0.win 2).blk t).view.set := by
  have hi0 : (i 0).val < 65536 := (i 0).isLt
  have hi1 : (i 1).val < 64 := (i 1).isLt
  have hq : (i 0).val / 8192 < cfg0.N := lt_of_lt_of_eq (by omega : (i 0).val / 8192 < 8) N_0.symm
  obtain ⟨_, _, _, _, e20, e21⟩ := idx_facts ⟨(i 0).val / 8192, hq⟩
  refine ⟨⟨(i 0).val / 8192, hq⟩, flush0_2 _, ?_⟩
  rw [mem_blk]
  intro a
  match a with
  | ⟨0, _⟩ =>
    show win0_2.index ⟨(i 0).val / 8192, hq⟩ (0 : Fin 2) * 8192 ≤ (i 0).val ∧ (i 0).val < win0_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win0_2.index ⟨(i 0).val / 8192, hq⟩ (1 : Fin 2) * 64 ≤ (i 1).val ∧ (i 1).val < win0_2.index ⟨(i 0).val / 8192, hq⟩ (1 : Fin 2) * 64 + 64
    rw [e21]; omega

/-- The output array after the region: the whole product of the arrays the region found. -/
theorem final (c : Dev nD) :
    (dat0 V c).arrAt 2 cfg0.N = Cert.Gcn.Spec.lin32 (V c (Pipeline.arrRef spec0 0)) (V c (Pipeline.arrRef spec0 1)) :=
  (dat0 V c).arrAt_eq_of_cover 2 _ (fun t _ => flushed_eq V c t) (cover)

end Cert.Gcn.Region0
-- ==== Proof.Region1.lean ====
/-
  Region 1 (a bias step with the clamp at zero): whatever the buffers hold when the region is entered, it leaves in its
  output array, at node r and feature c, the larger of zero and the input array's entry plus the bias row's entry of
  feature c. Point t of the grid holds rows 8192·t … 8192·t + 8191, the bias row is the same block at every point, and
  the eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 2000000 in
/-- What point t writes back is block t of the whole array's bias step. -/
theorem flushed_eq (c : Dev nD) (t : Fin cfg1.N) :
    (dat1 V c).flushed 2 t = ((cfg1.win 2).blk t).view.read (Elt Ideal)
      (Cert.Gcn.Spec.biasrelu (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S8192x64) hz, View.ld_unit_zero (S := S1x64) hz]
  obtain ⟨e00, e01, e10, e11, e20, e21⟩ := idx_facts t
  have hN : t.val < 8 := lt_of_lt_of_eq t.isLt N_1
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg1.win 2).blk t).view.emb (ix2 p q) = ix2 (⟨t.val * 8192 + p.val, hr⟩ : Fin 65536) q := by
    funext a; apply Fin.ext
    match a with
    | ⟨0, _⟩ => show win1_2.index t (0 : Fin 2) * 8192 + 1 * p.val = t.val * 8192 + p.val; omega
    | ⟨1, _⟩ => show win1_2.index t (1 : Fin 2) * 64 + 1 * q.val = q.val; omega
  show k1_pay1 (iblk1 V c 0 t) (iblk1 V c 1 t) (ix2 p q) = Cert.Gcn.Spec.biasrelu _ _ (((cfg1.win 2).blk t).view.emb (ix2 p q))
  rw [hemb]
  refine (Cert.Gcn.Tiles.biasrelu_at (iblk1 V c 0 t) (iblk1 V c 1 t) p q).trans ?_
  unfold Cert.Gcn.Spec.biasrelu
  have h0 : iblk1 V c 0 t (ix2 p q) = V c (Pipeline.arrRef spec1 0) (ix2 (⟨t.val * 8192 + p.val, hr⟩ : Fin 65536) q) := by
    show V c (Pipeline.arrRef spec1 0) (((cfg1.win 0).blk t).view.emb (ix2 p q)) = _
    refine congrArg (V c (Pipeline.arrRef spec1 0)) (funext fun a => Fin.ext ?_)
    match a with
    | ⟨0, _⟩ => show win1_0.index t (0 : Fin 2) * 8192 + 1 * p.val = t.val * 8192 + p.val; omega
    | ⟨1, _⟩ => show win1_0.index t (1 : Fin 2) * 64 + 1 * q.val = q.val; omega
  have h1 : iblk1 V c 1 t (ix2 (0 : Fin 1) q) = V c (Pipeline.arrRef spec1 1) (ix2 (0 : Fin 1) q) := by
    show V c (Pipeline.arrRef spec1 1) (((cfg1.win 1).blk t).view.emb (ix2 (0 : Fin 1) q)) = _
    refine congrArg (V c (Pipeline.arrRef spec1 1)) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  exact congrArg₂ (fun x y : EReal => max (x + y) (Ideal.ofBits .f32 0x00000000#32)) h0 h1

/-- An index of the output array is in point t's block iff each coordinate is in the block's range on its axis. -/
theorem mem_blk (t : Fin cfg1.N) (i : S65536x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v50).slice (win1_2.rect t)).set ↔ _
  rw [View.set_slice_whole, Rect.mem_set_unit]
  exact Iff.rfl

/-- Every index of the output array lies in the block of the point its row's quotient by 8192 names. -/
theorem cover (i : S65536x64.Idx) : ∃ t : Fin cfg1.N, (cfg1.win 2).flush t = true ∧ i ∈ ((cfg1.win 2).blk t).view.set := by
  have hi0 : (i 0).val < 65536 := (i 0).isLt
  have hi1 : (i 1).val < 64 := (i 1).isLt
  have hq : (i 0).val / 8192 < cfg1.N := lt_of_lt_of_eq (by omega : (i 0).val / 8192 < 8) N_1.symm
  obtain ⟨_, _, _, _, e20, e21⟩ := idx_facts ⟨(i 0).val / 8192, hq⟩
  refine ⟨⟨(i 0).val / 8192, hq⟩, flush1_2 _, ?_⟩
  rw [mem_blk]
  intro a
  match a with
  | ⟨0, _⟩ =>
    show win1_2.index ⟨(i 0).val / 8192, hq⟩ (0 : Fin 2) * 8192 ≤ (i 0).val ∧ (i 0).val < win1_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win1_2.index ⟨(i 0).val / 8192, hq⟩ (1 : Fin 2) * 64 ≤ (i 1).val ∧ (i 1).val < win1_2.index ⟨(i 0).val / 8192, hq⟩ (1 : Fin 2) * 64 + 64
    rw [e21]; omega

/-- The output array after the region: the bias step of the arrays the region found. -/
theorem final (c : Dev nD) :
    (dat1 V c).arrAt 2 cfg1.N = Cert.Gcn.Spec.biasrelu (V c (Pipeline.arrRef spec1 0)) (V c (Pipeline.arrRef spec1 1)) :=
  (dat1 V c).arrAt_eq_of_cover 2 _ (fun t _ => flushed_eq V c t) (cover)

end Cert.Gcn.Region1
-- ==== Proof.Region2.lean ====
/-
  Region 2 (a feature transform of 64 hidden features): whatever the buffers hold when the region is entered, it leaves
  in its output array the plain product of its input array (all 65536 node rows) with its weight array. Point t of the
  grid holds rows 8192·t … 8192·t + 8191; row p of its tile product is row 8192·t + p of the whole product, and the
  eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal)
      (Cert.Gcn.Spec.lin64 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S8192x64) hz, View.ld_unit_zero (S := S64x64) hz]
  obtain ⟨e00, e01, e10, e11, e20, e21⟩ := idx_facts t
  have hN : t.val < 8 := lt_of_lt_of_eq t.isLt N_2
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg2.win 2).blk t).view.emb (ix2 p q) = ix2 (⟨t.val * 8192 + p.val, hr⟩ : Fin 65536) q := by
    funext a; apply Fin.ext
    match a with
    | ⟨0, _⟩ => show win2_2.index t (0 : Fin 2) * 8192 + 1 * p.val = t.val * 8192 + p.val; omega
    | ⟨1, _⟩ => show win2_2.index t (1 : Fin 2) * 64 + 1 * q.val = q.val; omega
  show k2_pay1 (iblk2 V c 0 t) (iblk2 V c 1 t) (ix2 p q) = Cert.Gcn.Spec.lin64 _ _ (((cfg2.win 2).blk t).view.emb (ix2 p q))
  rw [hemb]
  unfold Cert.Gcn.Spec.lin64
  refine Cert.Gcn.Tiles.lin64_at Cert.Gcn.Spec.plain_ref64 (iblk2 V c 0 t) (iblk2 V c 1 t)
    (V c (Pipeline.arrRef spec2 0)) (V c (Pipeline.arrRef spec2 1)) p ⟨t.val * 8192 + p.val, hr⟩ q (fun k => ?_) (fun k => ?_)
  · show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 8192 + 1 * p.val = t.val * 8192 + p.val; omega
    | ⟨1, _⟩ => show win2_0.index t (1 : Fin 2) * 64 + 1 * k.val = k.val; omega
  · show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega

/-- An index of the output array is in point t's block iff each coordinate is in the block's range on its axis. -/
theorem mem_blk (t : Fin cfg2.N) (i : S65536x64.Idx) :
    i ∈ ((cfg2.win 2).blk t).view.set ↔ ∀ a : Fin 2, win2_2.index t a * S8192x64.size a ≤ (i a).val ∧ (i a).val < win2_2.index t a * S8192x64.size a + S8192x64.size a := by
  show i ∈ ((View.whole main_v51).slice (win2_2.rect t)).set ↔ _
  rw [View.set_slice_whole, Rect.mem_set_unit]
  exact Iff.rfl

/-- Every index of the output array lies in the block of the point its row's quotient by 8192 names. -/
theorem cover (i : S65536x64.Idx) : ∃ t : Fin cfg2.N, (cfg2.win 2).flush t = true ∧ i ∈ ((cfg2.win 2).blk t).view.set := by
  have hi0 : (i 0).val < 65536 := (i 0).isLt
  have hi1 : (i 1).val < 64 := (i 1).isLt
  have hq : (i 0).val / 8192 < cfg2.N := lt_of_lt_of_eq (by omega : (i 0).val / 8192 < 8) N_2.symm
  obtain ⟨_, _, _, _, e20, e21⟩ := idx_facts ⟨(i 0).val / 8192, hq⟩
  refine ⟨⟨(i 0).val / 8192, hq⟩, flush2_2 _, ?_⟩
  rw [mem_blk]
  intro a
  match a with
  | ⟨0, _⟩ =>
    show win2_2.index ⟨(i 0).val / 8192, hq⟩ (0 : Fin 2) * 8192 ≤ (i 0).val ∧ (i 0).val < win2_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win2_2.index ⟨(i 0).val / 8192, hq⟩ (1 : Fin 2) * 64 ≤ (i 1).val ∧ (i 1).val < win2_2.index ⟨(i 0).val / 8192, hq⟩ (1 : Fin 2) * 64 + 64
    rw [e21]; omega

/-- The output array after the region: the whole product of the arrays the region found. -/
theorem final (c : Dev nD) :
    (dat2 V c).arrAt 2 cfg2.N = Cert.Gcn.Spec.lin64 (V c (Pipeline.arrRef spec2 0)) (V c (Pipeline.arrRef spec2 1)) :=
  (dat2 V c).arrAt_eq_of_cover 2 _ (fun t _ => flushed_eq V c t) (cover)

end Cert.Gcn.Region2
-- ==== Proof.Region3.lean ====
/-
  Region 3 (a bias step with the clamp at zero): whatever the buffers hold when the region is entered, it leaves in its
  output array, at node r and feature c, the larger of zero and the input array's entry plus the bias row's entry of
  feature c. Point t of the grid holds rows 8192·t … 8192·t + 8191, the bias row is the same block at every point, and
  the eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 2000000 in
/-- What point t writes back is block t of the whole array's bias step. -/
theorem flushed_eq (c : Dev nD) (t : Fin cfg3.N) :
    (dat3 V c).flushed 2 t = ((cfg3.win 2).blk t).view.read (Elt Ideal)
      (Cert.Gcn.Spec.biasrelu (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S8192x64) hz, View.ld_unit_zero (S := S1x64) hz]
  obtain ⟨e00, e01, e10, e11, e20, e21⟩ := idx_facts t
  have hN : t.val < 8 := lt_of_lt_of_eq t.isLt N_3
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg3.win 2).blk t).view.emb (ix2 p q) = ix2 (⟨t.val * 8192 + p.val, hr⟩ : Fin 65536) q := by
    funext a; apply Fin.ext
    match a with
    | ⟨0, _⟩ => show win3_2.index t (0 : Fin 2) * 8192 + 1 * p.val = t.val * 8192 + p.val; omega
    | ⟨1, _⟩ => show win3_2.index t (1 : Fin 2) * 64 + 1 * q.val = q.val; omega
  show k1_pay1 (iblk3 V c 0 t) (iblk3 V c 1 t) (ix2 p q) = Cert.Gcn.Spec.biasrelu _ _ (((cfg3.win 2).blk t).view.emb (ix2 p q))
  rw [hemb]
  refine (Cert.Gcn.Tiles.biasrelu_at (iblk3 V c 0 t) (iblk3 V c 1 t) p q).trans ?_
  unfold Cert.Gcn.Spec.biasrelu
  have h0 : iblk3 V c 0 t (ix2 p q) = V c (Pipeline.arrRef spec3 0) (ix2 (⟨t.val * 8192 + p.val, hr⟩ : Fin 65536) q) := by
    show V c (Pipeline.arrRef spec3 0) (((cfg3.win 0).blk t).view.emb (ix2 p q)) = _
    refine congrArg (V c (Pipeline.arrRef spec3 0)) (funext fun a => Fin.ext ?_)
    match a with
    | ⟨0, _⟩ => show win3_0.index t (0 : Fin 2) * 8192 + 1 * p.val = t.val * 8192 + p.val; omega
    | ⟨1, _⟩ => show win3_0.index t (1 : Fin 2) * 64 + 1 * q.val = q.val; omega
  have h1 : iblk3 V c 1 t (ix2 (0 : Fin 1) q) = V c (Pipeline.arrRef spec3 1) (ix2 (0 : Fin 1) q) := by
    show V c (Pipeline.arrRef spec3 1) (((cfg3.win 1).blk t).view.emb (ix2 (0 : Fin 1) q)) = _
    refine congrArg (V c (Pipeline.arrRef spec3 1)) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  exact congrArg₂ (fun x y : EReal => max (x + y) (Ideal.ofBits .f32 0x00000000#32)) h0 h1

/-- An index of the output array is in point t's block iff each coordinate is in the block's range on its axis. -/
theorem mem_blk (t : Fin cfg3.N) (i : S65536x64.Idx) :
    i ∈ ((cfg3.win 2).blk t).view.set ↔ ∀ a : Fin 2, win3_2.index t a * S8192x64.size a ≤ (i a).val ∧ (i a).val < win3_2.index t a * S8192x64.size a + S8192x64.size a := by
  show i ∈ ((View.whole main_v66).slice (win3_2.rect t)).set ↔ _
  rw [View.set_slice_whole, Rect.mem_set_unit]
  exact Iff.rfl

/-- Every index of the output array lies in the block of the point its row's quotient by 8192 names. -/
theorem cover (i : S65536x64.Idx) : ∃ t : Fin cfg3.N, (cfg3.win 2).flush t = true ∧ i ∈ ((cfg3.win 2).blk t).view.set := by
  have hi0 : (i 0).val < 65536 := (i 0).isLt
  have hi1 : (i 1).val < 64 := (i 1).isLt
  have hq : (i 0).val / 8192 < cfg3.N := lt_of_lt_of_eq (by omega : (i 0).val / 8192 < 8) N_3.symm
  obtain ⟨_, _, _, _, e20, e21⟩ := idx_facts ⟨(i 0).val / 8192, hq⟩
  refine ⟨⟨(i 0).val / 8192, hq⟩, flush3_2 _, ?_⟩
  rw [mem_blk]
  intro a
  match a with
  | ⟨0, _⟩ =>
    show win3_2.index ⟨(i 0).val / 8192, hq⟩ (0 : Fin 2) * 8192 ≤ (i 0).val ∧ (i 0).val < win3_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win3_2.index ⟨(i 0).val / 8192, hq⟩ (1 : Fin 2) * 64 ≤ (i 1).val ∧ (i 1).val < win3_2.index ⟨(i 0).val / 8192, hq⟩ (1 : Fin 2) * 64 + 64
    rw [e21]; omega

/-- The output array after the region: the bias step of the arrays the region found. -/
theorem final (c : Dev nD) :
    (dat3 V c).arrAt 2 cfg3.N = Cert.Gcn.Spec.biasrelu (V c (Pipeline.arrRef spec3 0)) (V c (Pipeline.arrRef spec3 1)) :=
  (dat3 V c).arrAt_eq_of_cover 2 _ (fun t _ => flushed_eq V c t) (cover)

end Cert.Gcn.Region3
-- ==== Proof.Region4.lean ====
/-
  Region 4 (a feature transform of 64 hidden features): whatever the buffers hold when the region is entered, it leaves
  in its output array the plain product of its input array (all 65536 node rows) with its weight array. Point t of the
  grid holds rows 8192·t … 8192·t + 8191; row p of its tile product is row 8192·t + p of the whole product, and the
  eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region4

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the weights stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product. -/
theorem flushed_eq (c : Dev nD) (t : Fin cfg4.N) :
    (dat4 V c).flushed 2 t = ((cfg4.win 2).blk t).view.read (Elt Ideal)
      (Cert.Gcn.Spec.lin64 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S8192x64) hz, View.ld_unit_zero (S := S64x64) hz]
  obtain ⟨e00, e01, e10, e11, e20, e21⟩ := idx_facts t
  have hN : t.val < 8 := lt_of_lt_of_eq t.isLt N_4
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg4.win 2).blk t).view.emb (ix2 p q) = ix2 (⟨t.val * 8192 + p.val, hr⟩ : Fin 65536) q := by
    funext a; apply Fin.ext
    match a with
    | ⟨0, _⟩ => show win4_2.index t (0 : Fin 2) * 8192 + 1 * p.val = t.val * 8192 + p.val; omega
    | ⟨1, _⟩ => show win4_2.index t (1 : Fin 2) * 64 + 1 * q.val = q.val; omega
  show k2_pay1 (iblk4 V c 0 t) (iblk4 V c 1 t) (ix2 p q) = Cert.Gcn.Spec.lin64 _ _ (((cfg4.win 2).blk t).view.emb (ix2 p q))
  rw [hemb]
  unfold Cert.Gcn.Spec.lin64
  refine Cert.Gcn.Tiles.lin64_at Cert.Gcn.Spec.plain_ref64 (iblk4 V c 0 t) (iblk4 V c 1 t)
    (V c (Pipeline.arrRef spec4 0)) (V c (Pipeline.arrRef spec4 1)) p ⟨t.val * 8192 + p.val, hr⟩ q (fun k => ?_) (fun k => ?_)
  · show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 8192 + 1 * p.val = t.val * 8192 + p.val; omega
    | ⟨1, _⟩ => show win4_0.index t (1 : Fin 2) * 64 + 1 * k.val = k.val; omega
  · show V c (Pipeline.arrRef spec4 1) (((cfg4.win 1).blk t).view.emb (ix2 k q)) = _
    refine congrArg (V c (Pipeline.arrRef spec4 1)) (funext fun a => Fin.ext ?_)
    match a with
    | ⟨0, _⟩ => show win4_1.index t (0 : Fin 2) * 64 + 1 * k.val = k.val; omega
    | ⟨1, _⟩ => show win4_1.index t (1 : Fin 2) * 64 + 1 * q.val = q.val; omega

/-- An index of the output array is in point t's block iff each coordinate is in the block's range on its axis. -/
theorem mem_blk (t : Fin cfg4.N) (i : S65536x64.Idx) :
    i ∈ ((cfg4.win 2).blk t).view.set ↔ ∀ a : Fin 2, win4_2.index t a * S8192x64.size a ≤ (i a).val ∧ (i a).val < win4_2.index t a * S8192x64.size a + S8192x64.size a := by
  show i ∈ ((View.whole main_v67).slice (win4_2.rect t)).set ↔ _
  rw [View.set_slice_whole, Rect.mem_set_unit]
  exact Iff.rfl

/-- Every index of the output array lies in the block of the point its row's quotient by 8192 names. -/
theorem cover (i : S65536x64.Idx) : ∃ t : Fin cfg4.N, (cfg4.win 2).flush t = true ∧ i ∈ ((cfg4.win 2).blk t).view.set := by
  have hi0 : (i 0).val < 65536 := (i 0).isLt
  have hi1 : (i 1).val < 64 := (i 1).isLt
  have hq : (i 0).val / 8192 < cfg4.N := lt_of_lt_of_eq (by omega : (i 0).val / 8192 < 8) N_4.symm
  obtain ⟨_, _, _, _, e20, e21⟩ := idx_facts ⟨(i 0).val / 8192, hq⟩
  refine ⟨⟨(i 0).val / 8192, hq⟩, flush4_2 _, ?_⟩
  rw [mem_blk]
  intro a
  match a with
  | ⟨0, _⟩ =>
    show win4_2.index ⟨(i 0).val / 8192, hq⟩ (0 : Fin 2) * 8192 ≤ (i 0).val ∧ (i 0).val < win4_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win4_2.index ⟨(i 0).val / 8192, hq⟩ (1 : Fin 2) * 64 ≤ (i 1).val ∧ (i 1).val < win4_2.index ⟨(i 0).val / 8192, hq⟩ (1 : Fin 2) * 64 + 64
    rw [e21]; omega

/-- The output array after the region: the whole product of the arrays the region found. -/
theorem final (c : Dev nD) :
    (dat4 V c).arrAt 2 cfg4.N = Cert.Gcn.Spec.lin64 (V c (Pipeline.arrRef spec4 0)) (V c (Pipeline.arrRef spec4 1)) :=
  (dat4 V c).arrAt_eq_of_cover 2 _ (fun t _ => flushed_eq V c t) (cover)

end Cert.Gcn.Region4
-- ==== Proof.Region5.lean ====
/-
  Region 5 (a bias step with the clamp at zero): whatever the buffers hold when the region is entered, it leaves in its
  output array, at node r and feature c, the larger of zero and the input array's entry plus the bias row's entry of
  feature c. Point t of the grid holds rows 8192·t … 8192·t + 8191, the bias row is the same block at every point, and
  the eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region5

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the bias row stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

set_option maxHeartbeats 2000000 in
/-- What point t writes back is block t of the whole array's bias step. -/
theorem flushed_eq (c : Dev nD) (t : Fin cfg5.N) :
    (dat5 V c).flushed 2 t = ((cfg5.win 2).blk t).view.read (Elt Ideal)
      (Cert.Gcn.Spec.biasrelu (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S8192x64) hz, View.ld_unit_zero (S := S1x64) hz]
  obtain ⟨e00, e01, e10, e11, e20, e21⟩ := idx_facts t
  have hN : t.val < 8 := lt_of_lt_of_eq t.isLt N_5
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg5.win 2).blk t).view.emb (ix2 p q) = ix2 (⟨t.val * 8192 + p.val, hr⟩ : Fin 65536) q := by
    funext a; apply Fin.ext
    match a with
    | ⟨0, _⟩ => show win5_2.index t (0 : Fin 2) * 8192 + 1 * p.val = t.val * 8192 + p.val; omega
    | ⟨1, _⟩ => show win5_2.index t (1 : Fin 2) * 64 + 1 * q.val = q.val; omega
  show k1_pay1 (iblk5 V c 0 t) (iblk5 V c 1 t) (ix2 p q) = Cert.Gcn.Spec.biasrelu _ _ (((cfg5.win 2).blk t).view.emb (ix2 p q))
  rw [hemb]
  refine (Cert.Gcn.Tiles.biasrelu_at (iblk5 V c 0 t) (iblk5 V c 1 t) p q).trans ?_
  unfold Cert.Gcn.Spec.biasrelu
  have h0 : iblk5 V c 0 t (ix2 p q) = V c (Pipeline.arrRef spec5 0) (ix2 (⟨t.val * 8192 + p.val, hr⟩ : Fin 65536) q) := by
    show V c (Pipeline.arrRef spec5 0) (((cfg5.win 0).blk t).view.emb (ix2 p q)) = _
    refine congrArg (V c (Pipeline.arrRef spec5 0)) (funext fun a => Fin.ext ?_)
    match a with
    | ⟨0, _⟩ => show win5_0.index t (0 : Fin 2) * 8192 + 1 * p.val = t.val * 8192 + p.val; omega
    | ⟨1, _⟩ => show win5_0.index t (1 : Fin 2) * 64 + 1 * q.val = q.val; omega
  have h1 : iblk5 V c 1 t (ix2 (0 : Fin 1) q) = V c (Pipeline.arrRef spec5 1) (ix2 (0 : Fin 1) q) := by
    show V c (Pipeline.arrRef spec5 1) (((cfg5.win 1).blk t).view.emb (ix2 (0 : Fin 1) q)) = _
    refine congrArg (V c (Pipeline.arrRef spec5 1)) (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  exact congrArg₂ (fun x y : EReal => max (x + y) (Ideal.ofBits .f32 0x00000000#32)) h0 h1

/-- An index of the output array is in point t's block iff each coordinate is in the block's range on its axis. -/
theorem mem_blk (t : Fin cfg5.N) (i : S65536x64.Idx) :
    i ∈ ((cfg5.win 2).blk t).view.set ↔ ∀ a : Fin 2, win5_2.index t a * S8192x64.size a ≤ (i a).val ∧ (i a).val < win5_2.index t a * S8192x64.size a + S8192x64.size a := by
  show i ∈ ((View.whole main_v82).slice (win5_2.rect t)).set ↔ _
  rw [View.set_slice_whole, Rect.mem_set_unit]
  exact Iff.rfl

/-- Every index of the output array lies in the block of the point its row's quotient by 8192 names. -/
theorem cover (i : S65536x64.Idx) : ∃ t : Fin cfg5.N, (cfg5.win 2).flush t = true ∧ i ∈ ((cfg5.win 2).blk t).view.set := by
  have hi0 : (i 0).val < 65536 := (i 0).isLt
  have hi1 : (i 1).val < 64 := (i 1).isLt
  have hq : (i 0).val / 8192 < cfg5.N := lt_of_lt_of_eq (by omega : (i 0).val / 8192 < 8) N_5.symm
  obtain ⟨_, _, _, _, e20, e21⟩ := idx_facts ⟨(i 0).val / 8192, hq⟩
  refine ⟨⟨(i 0).val / 8192, hq⟩, flush5_2 _, ?_⟩
  rw [mem_blk]
  intro a
  match a with
  | ⟨0, _⟩ =>
    show win5_2.index ⟨(i 0).val / 8192, hq⟩ (0 : Fin 2) * 8192 ≤ (i 0).val ∧ (i 0).val < win5_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win5_2.index ⟨(i 0).val / 8192, hq⟩ (1 : Fin 2) * 64 ≤ (i 1).val ∧ (i 1).val < win5_2.index ⟨(i 0).val / 8192, hq⟩ (1 : Fin 2) * 64 + 64
    rw [e21]; omega

/-- The output array after the region: the bias step of the arrays the region found. -/
theorem final (c : Dev nD) :
    (dat5 V c).arrAt 2 cfg5.N = Cert.Gcn.Spec.biasrelu (V c (Pipeline.arrRef spec5 0)) (V c (Pipeline.arrRef spec5 1)) :=
  (dat5 V c).arrAt_eq_of_cover 2 _ (fun t _ => flushed_eq V c t) (cover)

end Cert.Gcn.Region5
-- ==== Proof.Region6.lean ====
/-
  Region 6 (a feature transform of 64 hidden features): whatever the buffers hold when the region is entered, it leaves
  in its output array the plain product of its input array (all 65536 node rows) with its weight array. Point t of the
  grid holds rows 8192·t … 8192·t + 8191; row p of its tile product is row 8192·t + p of the whole product, and the
  eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region6

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the weights stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product. -/
theorem flushed_eq (c : Dev nD) (t : Fin cfg6.N) :
    (dat6 V c).flushed 2 t = ((cfg6.win 2).blk t).view.read (Elt Ideal)
      (Cert.Gcn.Spec.lin64 (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S8192x64) hz, View.ld_unit_zero (S := S64x64) hz]
  obtain ⟨e00, e01, e10, e11, e20, e21⟩ := idx_facts t
  have hN : t.val < 8 := lt_of_lt_of_eq t.isLt N_6
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg6.win 2).blk t).view.emb (ix2 p q) = ix2 (⟨t.val * 8192 + p.val, hr⟩ : Fin 65536) q := by
    funext a; apply Fin.ext
    match a with
    | ⟨0, _⟩ => show win6_2.index t (0 : Fin 2) * 8192 + 1 * p.val = t.val * 8192 + p.val; omega
    | ⟨1, _⟩ => show win6_2.index t (1 : Fin 2) * 64 + 1 * q.val = q.val; omega
  show k2_pay1 (iblk6 V c 0 t) (iblk6 V c 1 t) (ix2 p q) = Cert.Gcn.Spec.lin64 _ _ (((cfg6.win 2).blk t).view.emb (ix2 p q))
  rw [hemb]
  unfold Cert.Gcn.Spec.lin64
  refine Cert.Gcn.Tiles.lin64_at Cert.Gcn.Spec.plain_ref64 (iblk6 V c 0 t) (iblk6 V c 1 t)
    (V c (Pipeline.arrRef spec6 0)) (V c (Pipeline.arrRef spec6 1)) p ⟨t.val * 8192 + p.val, hr⟩ q (fun k => ?_) (fun k => ?_)
  · show V c (Pipeline.arrRef spec6 0) (((cfg6.win 0).blk t).view.emb (ix2 p k)) = _
    refine congrArg (V c (Pipeline.arrRef spec6 0)) (funext fun a => Fin.ext ?_)
    match a with
    | ⟨0, _⟩ => show win6_0.index t (0 : Fin 2) * 8192 + 1 * p.val = t.val * 8192 + p.val; omega
    | ⟨1, _⟩ => show win6_0.index t (1 : Fin 2) * 64 + 1 * k.val = k.val; omega
  · show V c (Pipeline.arrRef spec6 1) (((cfg6.win 1).blk t).view.emb (ix2 k q)) = _
    refine congrArg (V c (Pipeline.arrRef spec6 1)) (funext fun a => Fin.ext ?_)
    match a with
    | ⟨0, _⟩ => show win6_1.index t (0 : Fin 2) * 64 + 1 * k.val = k.val; omega
    | ⟨1, _⟩ => show win6_1.index t (1 : Fin 2) * 64 + 1 * q.val = q.val; omega

/-- An index of the output array is in point t's block iff each coordinate is in the block's range on its axis. -/
theorem mem_blk (t : Fin cfg6.N) (i : S65536x64.Idx) :
    i ∈ ((cfg6.win 2).blk t).view.set ↔ ∀ a : Fin 2, win6_2.index t a * S8192x64.size a ≤ (i a).val ∧ (i a).val < win6_2.index t a * S8192x64.size a + S8192x64.size a := by
  show i ∈ ((View.whole main_v83).slice (win6_2.rect t)).set ↔ _
  rw [View.set_slice_whole, Rect.mem_set_unit]
  exact Iff.rfl

/-- Every index of the output array lies in the block of the point its row's quotient by 8192 names. -/
theorem cover (i : S65536x64.Idx) : ∃ t : Fin cfg6.N, (cfg6.win 2).flush t = true ∧ i ∈ ((cfg6.win 2).blk t).view.set := by
  have hi0 : (i 0).val < 65536 := (i 0).isLt
  have hi1 : (i 1).val < 64 := (i 1).isLt
  have hq : (i 0).val / 8192 < cfg6.N := lt_of_lt_of_eq (by omega : (i 0).val / 8192 < 8) N_6.symm
  obtain ⟨_, _, _, _, e20, e21⟩ := idx_facts ⟨(i 0).val / 8192, hq⟩
  refine ⟨⟨(i 0).val / 8192, hq⟩, flush6_2 _, ?_⟩
  rw [mem_blk]
  intro a
  match a with
  | ⟨0, _⟩ =>
    show win6_2.index ⟨(i 0).val / 8192, hq⟩ (0 : Fin 2) * 8192 ≤ (i 0).val ∧ (i 0).val < win6_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win6_2.index ⟨(i 0).val / 8192, hq⟩ (1 : Fin 2) * 64 ≤ (i 1).val ∧ (i 1).val < win6_2.index ⟨(i 0).val / 8192, hq⟩ (1 : Fin 2) * 64 + 64
    rw [e21]; omega

/-- The output array after the region: the whole product of the arrays the region found. -/
theorem final (c : Dev nD) :
    (dat6 V c).arrAt 2 cfg6.N = Cert.Gcn.Spec.lin64 (V c (Pipeline.arrRef spec6 0)) (V c (Pipeline.arrRef spec6 1)) :=
  (dat6 V c).arrAt_eq_of_cover 2 _ (fun t _ => flushed_eq V c t) (cover)

end Cert.Gcn.Region6
-- ==== Proof.Region7.lean ====
/-
  Region 7 (a bias step with the clamp at zero): whatever the buffers hold when the region is entered, it leaves in its
  output array, at node r and feature c, the larger of zero and the input array's entry plus the bias row's entry of
  feature c. Point t of the grid holds rows 8192·t … 8192·t + 8191, the bias row is the same block at every point, and
  the eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region7

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the bias row stays. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

set_option maxHeartbeats 2000000 in
/-- What point t writes back is block t of the whole array's bias step. -/
theorem flushed_eq (c : Dev nD) (t : Fin cfg7.N) :
    (dat7 V c).flushed 2 t = ((cfg7.win 2).blk t).view.read (Elt Ideal)
      (Cert.Gcn.Spec.biasrelu (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S8192x64) hz, View.ld_unit_zero (S := S1x64) hz]
  obtain ⟨e00, e01, e10, e11, e20, e21⟩ := idx_facts t
  have hN : t.val < 8 := lt_of_lt_of_eq t.isLt N_7
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg7.win 2).blk t).view.emb (ix2 p q) = ix2 (⟨t.val * 8192 + p.val, hr⟩ : Fin 65536) q := by
    funext a; apply Fin.ext
    match a with
    | ⟨0, _⟩ => show win7_2.index t (0 : Fin 2) * 8192 + 1 * p.val = t.val * 8192 + p.val; omega
    | ⟨1, _⟩ => show win7_2.index t (1 : Fin 2) * 64 + 1 * q.val = q.val; omega
  show k1_pay1 (iblk7 V c 0 t) (iblk7 V c 1 t) (ix2 p q) = Cert.Gcn.Spec.biasrelu _ _ (((cfg7.win 2).blk t).view.emb (ix2 p q))
  rw [hemb]
  refine (Cert.Gcn.Tiles.biasrelu_at (iblk7 V c 0 t) (iblk7 V c 1 t) p q).trans ?_
  unfold Cert.Gcn.Spec.biasrelu
  have h0 : iblk7 V c 0 t (ix2 p q) = V c (Pipeline.arrRef spec7 0) (ix2 (⟨t.val * 8192 + p.val, hr⟩ : Fin 65536) q) := by
    show V c (Pipeline.arrRef spec7 0) (((cfg7.win 0).blk t).view.emb (ix2 p q)) = _
    refine congrArg (V c (Pipeline.arrRef spec7 0)) (funext fun a => Fin.ext ?_)
    match a with
    | ⟨0, _⟩ => show win7_0.index t (0 : Fin 2) * 8192 + 1 * p.val = t.val * 8192 + p.val; omega
    | ⟨1, _⟩ => show win7_0.index t (1 : Fin 2) * 64 + 1 * q.val = q.val; omega
  have h1 : iblk7 V c 1 t (ix2 (0 : Fin 1) q) = V c (Pipeline.arrRef spec7 1) (ix2 (0 : Fin 1) q) := by
    show V c (Pipeline.arrRef spec7 1) (((cfg7.win 1).blk t).view.emb (ix2 (0 : Fin 1) q)) = _
    refine congrArg (V c (Pipeline.arrRef spec7 1)) (funext fun a => Fin.ext ?_)
    match a with
    | ⟨0, _⟩ => show win7_1.index t (0 : Fin 2) * 1 + 1 * 0 = 0; omega
    | ⟨1, _⟩ => show win7_1.index t (1 : Fin 2) * 64 + 1 * q.val = q.val; omega
  exact congrArg₂ (fun x y : EReal => max (x + y) (Ideal.ofBits .f32 0x00000000#32)) h0 h1

/-- An index of the output array is in point t's block iff each coordinate is in the block's range on its axis. -/
theorem mem_blk (t : Fin cfg7.N) (i : S65536x64.Idx) :
    i ∈ ((cfg7.win 2).blk t).view.set ↔ ∀ a : Fin 2, win7_2.index t a * S8192x64.size a ≤ (i a).val ∧ (i a).val < win7_2.index t a * S8192x64.size a + S8192x64.size a := by
  show i ∈ ((View.whole main_v98).slice (win7_2.rect t)).set ↔ _
  rw [View.set_slice_whole, Rect.mem_set_unit]
  exact Iff.rfl

/-- Every index of the output array lies in the block of the point its row's quotient by 8192 names. -/
theorem cover (i : S65536x64.Idx) : ∃ t : Fin cfg7.N, (cfg7.win 2).flush t = true ∧ i ∈ ((cfg7.win 2).blk t).view.set := by
  have hi0 : (i 0).val < 65536 := (i 0).isLt
  have hi1 : (i 1).val < 64 := (i 1).isLt
  have hq : (i 0).val / 8192 < cfg7.N := lt_of_lt_of_eq (by omega : (i 0).val / 8192 < 8) N_7.symm
  obtain ⟨_, _, _, _, e20, e21⟩ := idx_facts ⟨(i 0).val / 8192, hq⟩
  refine ⟨⟨(i 0).val / 8192, hq⟩, flush7_2 _, ?_⟩
  rw [mem_blk]
  intro a
  match a with
  | ⟨0, _⟩ =>
    show win7_2.index ⟨(i 0).val / 8192, hq⟩ (0 : Fin 2) * 8192 ≤ (i 0).val ∧ (i 0).val < win7_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win7_2.index ⟨(i 0).val / 8192, hq⟩ (1 : Fin 2) * 64 ≤ (i 1).val ∧ (i 1).val < win7_2.index ⟨(i 0).val / 8192, hq⟩ (1 : Fin 2) * 64 + 64
    rw [e21]; omega

/-- The output array after the region: the bias step of the arrays the region found. -/
theorem final (c : Dev nD) :
    (dat7 V c).arrAt 2 cfg7.N = Cert.Gcn.Spec.biasrelu (V c (Pipeline.arrRef spec7 0)) (V c (Pipeline.arrRef spec7 1)) :=
  (dat7 V c).arrAt_eq_of_cover 2 _ (fun t _ => flushed_eq V c t) (cover)

end Cert.Gcn.Region7
-- ==== Proof.Region8.lean ====
/-
  Region 8 (a feature transform of 64 hidden features): whatever the buffers hold when the region is entered, it leaves
  in its output array the plain product of its input array (all 65536 node rows) with its weight array. Point t of the
  grid holds rows 8192·t … 8192·t + 8191; row p of its tile product is row 8192·t + p of the whole product, and the
  eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region8

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the weights stay. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the whole product. -/
theorem flushed_eq (c : Dev nD) (t : Fin cfg8.N) :
    (dat8 V c).flushed 2 t = ((cfg8.win 2).blk t).view.read (Elt Ideal)
      (Cert.Gcn.Spec.lin64 (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S8192x64) hz, View.ld_unit_zero (S := S64x64) hz]
  obtain ⟨e00, e01, e10, e11, e20, e21⟩ := idx_facts t
  have hN : t.val < 8 := lt_of_lt_of_eq t.isLt N_8
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg8.win 2).blk t).view.emb (ix2 p q) = ix2 (⟨t.val * 8192 + p.val, hr⟩ : Fin 65536) q := by
    funext a; apply Fin.ext
    match a with
    | ⟨0, _⟩ => show win8_2.index t (0 : Fin 2) * 8192 + 1 * p.val = t.val * 8192 + p.val; omega
    | ⟨1, _⟩ => show win8_2.index t (1 : Fin 2) * 64 + 1 * q.val = q.val; omega
  show k2_pay1 (iblk8 V c 0 t) (iblk8 V c 1 t) (ix2 p q) = Cert.Gcn.Spec.lin64 _ _ (((cfg8.win 2).blk t).view.emb (ix2 p q))
  rw [hemb]
  unfold Cert.Gcn.Spec.lin64
  refine Cert.Gcn.Tiles.lin64_at Cert.Gcn.Spec.plain_ref64 (iblk8 V c 0 t) (iblk8 V c 1 t)
    (V c (Pipeline.arrRef spec8 0)) (V c (Pipeline.arrRef spec8 1)) p ⟨t.val * 8192 + p.val, hr⟩ q (fun k => ?_) (fun k => ?_)
  · show V c (Pipeline.arrRef spec8 0) (((cfg8.win 0).blk t).view.emb (ix2 p k)) = _
    refine congrArg (V c (Pipeline.arrRef spec8 0)) (funext fun a => Fin.ext ?_)
    match a with
    | ⟨0, _⟩ => show win8_0.index t (0 : Fin 2) * 8192 + 1 * p.val = t.val * 8192 + p.val; omega
    | ⟨1, _⟩ => show win8_0.index t (1 : Fin 2) * 64 + 1 * k.val = k.val; omega
  · show V c (Pipeline.arrRef spec8 1) (((cfg8.win 1).blk t).view.emb (ix2 k q)) = _
    refine congrArg (V c (Pipeline.arrRef spec8 1)) (funext fun a => Fin.ext ?_)
    match a with
    | ⟨0, _⟩ => show win8_1.index t (0 : Fin 2) * 64 + 1 * k.val = k.val; omega
    | ⟨1, _⟩ => show win8_1.index t (1 : Fin 2) * 64 + 1 * q.val = q.val; omega

/-- An index of the output array is in point t's block iff each coordinate is in the block's range on its axis. -/
theorem mem_blk (t : Fin cfg8.N) (i : S65536x64.Idx) :
    i ∈ ((cfg8.win 2).blk t).view.set ↔ ∀ a : Fin 2, win8_2.index t a * S8192x64.size a ≤ (i a).val ∧ (i a).val < win8_2.index t a * S8192x64.size a + S8192x64.size a := by
  show i ∈ ((View.whole main_v99).slice (win8_2.rect t)).set ↔ _
  rw [View.set_slice_whole, Rect.mem_set_unit]
  exact Iff.rfl

/-- Every index of the output array lies in the block of the point its row's quotient by 8192 names. -/
theorem cover (i : S65536x64.Idx) : ∃ t : Fin cfg8.N, (cfg8.win 2).flush t = true ∧ i ∈ ((cfg8.win 2).blk t).view.set := by
  have hi0 : (i 0).val < 65536 := (i 0).isLt
  have hi1 : (i 1).val < 64 := (i 1).isLt
  have hq : (i 0).val / 8192 < cfg8.N := lt_of_lt_of_eq (by omega : (i 0).val / 8192 < 8) N_8.symm
  obtain ⟨_, _, _, _, e20, e21⟩ := idx_facts ⟨(i 0).val / 8192, hq⟩
  refine ⟨⟨(i 0).val / 8192, hq⟩, flush8_2 _, ?_⟩
  rw [mem_blk]
  intro a
  match a with
  | ⟨0, _⟩ =>
    show win8_2.index ⟨(i 0).val / 8192, hq⟩ (0 : Fin 2) * 8192 ≤ (i 0).val ∧ (i 0).val < win8_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win8_2.index ⟨(i 0).val / 8192, hq⟩ (1 : Fin 2) * 64 ≤ (i 1).val ∧ (i 1).val < win8_2.index ⟨(i 0).val / 8192, hq⟩ (1 : Fin 2) * 64 + 64
    rw [e21]; omega

/-- The output array after the region: the whole product of the arrays the region found. -/
theorem final (c : Dev nD) :
    (dat8 V c).arrAt 2 cfg8.N = Cert.Gcn.Spec.lin64 (V c (Pipeline.arrRef spec8 0)) (V c (Pipeline.arrRef spec8 1)) :=
  (dat8 V c).arrAt_eq_of_cover 2 _ (fun t _ => flushed_eq V c t) (cover)

end Cert.Gcn.Region8
-- ==== Proof.Region9.lean ====
/-
  Region 9 (a bias step with the clamp at zero): whatever the buffers hold when the region is entered, it leaves in its
  output array, at node r and feature c, the larger of zero and the input array's entry plus the bias row's entry of
  feature c. Point t of the grid holds rows 8192·t … 8192·t + 8191, the bias row is the same block at every point, and
  the eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region9

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the bias row stays. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

set_option maxHeartbeats 2000000 in
/-- What point t writes back is block t of the whole array's bias step. -/
theorem flushed_eq (c : Dev nD) (t : Fin cfg9.N) :
    (dat9 V c).flushed 2 t = ((cfg9.win 2).blk t).view.read (Elt Ideal)
      (Cert.Gcn.Spec.biasrelu (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S8192x64) hz, View.ld_unit_zero (S := S1x64) hz]
  obtain ⟨e00, e01, e10, e11, e20, e21⟩ := idx_facts t
  have hN : t.val < 8 := lt_of_lt_of_eq t.isLt N_9
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg9.win 2).blk t).view.emb (ix2 p q) = ix2 (⟨t.val * 8192 + p.val, hr⟩ : Fin 65536) q := by
    funext a; apply Fin.ext
    match a with
    | ⟨0, _⟩ => show win9_2.index t (0 : Fin 2) * 8192 + 1 * p.val = t.val * 8192 + p.val; omega
    | ⟨1, _⟩ => show win9_2.index t (1 : Fin 2) * 64 + 1 * q.val = q.val; omega
  show k1_pay1 (iblk9 V c 0 t) (iblk9 V c 1 t) (ix2 p q) = Cert.Gcn.Spec.biasrelu _ _ (((cfg9.win 2).blk t).view.emb (ix2 p q))
  rw [hemb]
  refine (Cert.Gcn.Tiles.biasrelu_at (iblk9 V c 0 t) (iblk9 V c 1 t) p q).trans ?_
  unfold Cert.Gcn.Spec.biasrelu
  have h0 : iblk9 V c 0 t (ix2 p q) = V c (Pipeline.arrRef spec9 0) (ix2 (⟨t.val * 8192 + p.val, hr⟩ : Fin 65536) q) := by
    show V c (Pipeline.arrRef spec9 0) (((cfg9.win 0).blk t).view.emb (ix2 p q)) = _
    refine congrArg (V c (Pipeline.arrRef spec9 0)) (funext fun a => Fin.ext ?_)
    match a with
    | ⟨0, _⟩ => show win9_0.index t (0 : Fin 2) * 8192 + 1 * p.val = t.val * 8192 + p.val; omega
    | ⟨1, _⟩ => show win9_0.index t (1 : Fin 2) * 64 + 1 * q.val = q.val; omega
  have h1 : iblk9 V c 1 t (ix2 (0 : Fin 1) q) = V c (Pipeline.arrRef spec9 1) (ix2 (0 : Fin 1) q) := by
    show V c (Pipeline.arrRef spec9 1) (((cfg9.win 1).blk t).view.emb (ix2 (0 : Fin 1) q)) = _
    refine congrArg (V c (Pipeline.arrRef spec9 1)) (funext fun a => Fin.ext ?_)
    match a with
    | ⟨0, _⟩ => show win9_1.index t (0 : Fin 2) * 1 + 1 * 0 = 0; omega
    | ⟨1, _⟩ => show win9_1.index t (1 : Fin 2) * 64 + 1 * q.val = q.val; omega
  exact congrArg₂ (fun x y : EReal => max (x + y) (Ideal.ofBits .f32 0x00000000#32)) h0 h1

/-- An index of the output array is in point t's block iff each coordinate is in the block's range on its axis. -/
theorem mem_blk (t : Fin cfg9.N) (i : S65536x64.Idx) :
    i ∈ ((cfg9.win 2).blk t).view.set ↔ ∀ a : Fin 2, win9_2.index t a * S8192x64.size a ≤ (i a).val ∧ (i a).val < win9_2.index t a * S8192x64.size a + S8192x64.size a := by
  show i ∈ ((View.whole main_v114).slice (win9_2.rect t)).set ↔ _
  rw [View.set_slice_whole, Rect.mem_set_unit]
  exact Iff.rfl

/-- Every index of the output array lies in the block of the point its row's quotient by 8192 names. -/
theorem cover (i : S65536x64.Idx) : ∃ t : Fin cfg9.N, (cfg9.win 2).flush t = true ∧ i ∈ ((cfg9.win 2).blk t).view.set := by
  have hi0 : (i 0).val < 65536 := (i 0).isLt
  have hi1 : (i 1).val < 64 := (i 1).isLt
  have hq : (i 0).val / 8192 < cfg9.N := lt_of_lt_of_eq (by omega : (i 0).val / 8192 < 8) N_9.symm
  obtain ⟨_, _, _, _, e20, e21⟩ := idx_facts ⟨(i 0).val / 8192, hq⟩
  refine ⟨⟨(i 0).val / 8192, hq⟩, flush9_2 _, ?_⟩
  rw [mem_blk]
  intro a
  match a with
  | ⟨0, _⟩ =>
    show win9_2.index ⟨(i 0).val / 8192, hq⟩ (0 : Fin 2) * 8192 ≤ (i 0).val ∧ (i 0).val < win9_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win9_2.index ⟨(i 0).val / 8192, hq⟩ (1 : Fin 2) * 64 ≤ (i 1).val ∧ (i 1).val < win9_2.index ⟨(i 0).val / 8192, hq⟩ (1 : Fin 2) * 64 + 64
    rw [e21]; omega

/-- The output array after the region: the bias step of the arrays the region found. -/
theorem final (c : Dev nD) :
    (dat9 V c).arrAt 2 cfg9.N = Cert.Gcn.Spec.biasrelu (V c (Pipeline.arrRef spec9 0)) (V c (Pipeline.arrRef spec9 1)) :=
  (dat9 V c).arrAt_eq_of_cover 2 _ (fun t _ => flushed_eq V c t) (cover)

end Cert.Gcn.Region9
-- ==== Proof.Region10.lean ====
/-
  Region 10 (a feature transform of 64 hidden features): whatever the buffers hold when the region is entered, it leaves
  in its output array the plain product of its input array (all 65536 node rows) with its weight array. Point t of the
  grid holds rows 8192·t … 8192·t + 8191; row p of its tile product is row 8192·t + p of the whole product, and the
  eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region10

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the weights stay. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point t writes back is block t of the whole product. -/
theorem flushed_eq (c : Dev nD) (t : Fin cfg10.N) :
    (dat10 V c).flushed 2 t = ((cfg10.win 2).blk t).view.read (Elt Ideal)
      (Cert.Gcn.Spec.lin64 (V c (Pipeline.arrRef spec10 0)) (V c (Pipeline.arrRef spec10 1))) := by
  show (cfg10.win 2).cut (grid10.coords t) ((dat10 V c).after 2 t) = _
  rw [after10_2]
  unfold out10_2
  rw [View.canon_unit_zero hz]
  simp only [View.ld_unit_zero (S := S8192x64) hz, View.ld_unit_zero (S := S64x64) hz]
  obtain ⟨e00, e01, e10, e11, e20, e21⟩ := idx_facts t
  have hN : t.val < 8 := lt_of_lt_of_eq t.isLt N_10
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg10.win 2).blk t).view.emb (ix2 p q) = ix2 (⟨t.val * 8192 + p.val, hr⟩ : Fin 65536) q := by
    funext a; apply Fin.ext
    match a with
    | ⟨0, _⟩ => show win10_2.index t (0 : Fin 2) * 8192 + 1 * p.val = t.val * 8192 + p.val; omega
    | ⟨1, _⟩ => show win10_2.index t (1 : Fin 2) * 64 + 1 * q.val = q.val; omega
  show k2_pay1 (iblk10 V c 0 t) (iblk10 V c 1 t) (ix2 p q) = Cert.Gcn.Spec.lin64 _ _ (((cfg10.win 2).blk t).view.emb (ix2 p q))
  rw [hemb]
  unfold Cert.Gcn.Spec.lin64
  refine Cert.Gcn.Tiles.lin64_at Cert.Gcn.Spec.plain_ref64 (iblk10 V c 0 t) (iblk10 V c 1 t)
    (V c (Pipeline.arrRef spec10 0)) (V c (Pipeline.arrRef spec10 1)) p ⟨t.val * 8192 + p.val, hr⟩ q (fun k => ?_) (fun k => ?_)
  · show V c (Pipeline.arrRef spec10 0) (((cfg10.win 0).blk t).view.emb (ix2 p k)) = _
    refine congrArg (V c (Pipeline.arrRef spec10 0)) (funext fun a => Fin.ext ?_)
    match a with
    | ⟨0, _⟩ => show win10_0.index t (0 : Fin 2) * 8192 + 1 * p.val = t.val * 8192 + p.val; omega
    | ⟨1, _⟩ => show win10_0.index t (1 : Fin 2) * 64 + 1 * k.val = k.val; omega
  · show V c (Pipeline.arrRef spec10 1) (((cfg10.win 1).blk t).view.emb (ix2 k q)) = _
    refine congrArg (V c (Pipeline.arrRef spec10 1)) (funext fun a => Fin.ext ?_)
    match a with
    | ⟨0, _⟩ => show win10_1.index t (0 : Fin 2) * 64 + 1 * k.val = k.val; omega
    | ⟨1, _⟩ => show win10_1.index t (1 : Fin 2) * 64 + 1 * q.val = q.val; omega

/-- An index of the output array is in point t's block iff each coordinate is in the block's range on its axis. -/
theorem mem_blk (t : Fin cfg10.N) (i : S65536x64.Idx) :
    i ∈ ((cfg10.win 2).blk t).view.set ↔ ∀ a : Fin 2, win10_2.index t a * S8192x64.size a ≤ (i a).val ∧ (i a).val < win10_2.index t a * S8192x64.size a + S8192x64.size a := by
  show i ∈ ((View.whole main_v115).slice (win10_2.rect t)).set ↔ _
  rw [View.set_slice_whole, Rect.mem_set_unit]
  exact Iff.rfl

/-- Every index of the output array lies in the block of the point its row's quotient by 8192 names. -/
theorem cover (i : S65536x64.Idx) : ∃ t : Fin cfg10.N, (cfg10.win 2).flush t = true ∧ i ∈ ((cfg10.win 2).blk t).view.set := by
  have hi0 : (i 0).val < 65536 := (i 0).isLt
  have hi1 : (i 1).val < 64 := (i 1).isLt
  have hq : (i 0).val / 8192 < cfg10.N := lt_of_lt_of_eq (by omega : (i 0).val / 8192 < 8) N_10.symm
  obtain ⟨_, _, _, _, e20, e21⟩ := idx_facts ⟨(i 0).val / 8192, hq⟩
  refine ⟨⟨(i 0).val / 8192, hq⟩, flush10_2 _, ?_⟩
  rw [mem_blk]
  intro a
  match a with
  | ⟨0, _⟩ =>
    show win10_2.index ⟨(i 0).val / 8192, hq⟩ (0 : Fin 2) * 8192 ≤ (i 0).val ∧ (i 0).val < win10_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win10_2.index ⟨(i 0).val / 8192, hq⟩ (1 : Fin 2) * 64 ≤ (i 1).val ∧ (i 1).val < win10_2.index ⟨(i 0).val / 8192, hq⟩ (1 : Fin 2) * 64 + 64
    rw [e21]; omega

/-- The output array after the region: the whole product of the arrays the region found. -/
theorem final (c : Dev nD) :
    (dat10 V c).arrAt 2 cfg10.N = Cert.Gcn.Spec.lin64 (V c (Pipeline.arrRef spec10 0)) (V c (Pipeline.arrRef spec10 1)) :=
  (dat10 V c).arrAt_eq_of_cover 2 _ (fun t _ => flushed_eq V c t) (cover)

end Cert.Gcn.Region10
-- ==== Proof.Region11.lean ====
/-
  Region 11 (the last layer's bias step, no clamp): whatever the buffers hold when the region is entered, it leaves in its
  output array, at node r and feature c, the input array's entry plus the bias row's entry of feature c. Point t of the grid holds rows 8192·t … 8192·t + 8191, the bias row is the same block at every point, and
  the eight blocks cover the array.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

namespace Cert.Gcn.Region11

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight grid points: the row blocks move with the point, the bias row stays. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

set_option maxHeartbeats 2000000 in
/-- What point t writes back is block t of the whole array's bias step. -/
theorem flushed_eq (c : Dev nD) (t : Fin cfg11.N) :
    (dat11 V c).flushed 2 t = ((cfg11.win 2).blk t).view.read (Elt Ideal)
      (Cert.Gcn.Spec.bias (V c (Pipeline.arrRef spec11 0)) (V c (Pipeline.arrRef spec11 1))) := by
  show (cfg11.win 2).cut (grid11.coords t) ((dat11 V c).after 2 t) = _
  rw [after11_2]
  unfold out11_2
  rw [View.canon_unit_zero hz]
  simp only [View.ld_unit_zero (S := S8192x64) hz, View.ld_unit_zero (S := S1x64) hz]
  obtain ⟨e00, e01, e10, e11, e20, e21⟩ := idx_facts t
  have hN : t.val < 8 := lt_of_lt_of_eq t.isLt N_11
  funext j
  obtain ⟨p, q, rfl⟩ : ∃ (p : Fin 8192) (q : Fin 64), j = ix2 p q := ⟨j 0, j 1, eq_ix2 j⟩
  have hr : t.val * 8192 + p.val < 65536 := by have := p.isLt; omega
  have hemb : ((cfg11.win 2).blk t).view.emb (ix2 p q) = ix2 (⟨t.val * 8192 + p.val, hr⟩ : Fin 65536) q := by
    funext a; apply Fin.ext
    match a with
    | ⟨0, _⟩ => show win11_2.index t (0 : Fin 2) * 8192 + 1 * p.val = t.val * 8192 + p.val; omega
    | ⟨1, _⟩ => show win11_2.index t (1 : Fin 2) * 64 + 1 * q.val = q.val; omega
  show k11_pay1 (iblk11 V c 0 t) (iblk11 V c 1 t) (ix2 p q) = Cert.Gcn.Spec.bias _ _ (((cfg11.win 2).blk t).view.emb (ix2 p q))
  rw [hemb]
  refine (Cert.Gcn.Tiles.bias_at (iblk11 V c 0 t) (iblk11 V c 1 t) p q).trans ?_
  unfold Cert.Gcn.Spec.bias
  have h0 : iblk11 V c 0 t (ix2 p q) = V c (Pipeline.arrRef spec11 0) (ix2 (⟨t.val * 8192 + p.val, hr⟩ : Fin 65536) q) := by
    show V c (Pipeline.arrRef spec11 0) (((cfg11.win 0).blk t).view.emb (ix2 p q)) = _
    refine congrArg (V c (Pipeline.arrRef spec11 0)) (funext fun a => Fin.ext ?_)
    match a with
    | ⟨0, _⟩ => show win11_0.index t (0 : Fin 2) * 8192 + 1 * p.val = t.val * 8192 + p.val; omega
    | ⟨1, _⟩ => show win11_0.index t (1 : Fin 2) * 64 + 1 * q.val = q.val; omega
  have h1 : iblk11 V c 1 t (ix2 (0 : Fin 1) q) = V c (Pipeline.arrRef spec11 1) (ix2 (0 : Fin 1) q) := by
    show V c (Pipeline.arrRef spec11 1) (((cfg11.win 1).blk t).view.emb (ix2 (0 : Fin 1) q)) = _
    refine congrArg (V c (Pipeline.arrRef spec11 1)) (funext fun a => Fin.ext ?_)
    match a with
    | ⟨0, _⟩ => show win11_1.index t (0 : Fin 2) * 1 + 1 * 0 = 0; omega
    | ⟨1, _⟩ => show win11_1.index t (1 : Fin 2) * 64 + 1 * q.val = q.val; omega
  exact congrArg₂ (fun x y : EReal => x + y) h0 h1

/-- An index of the output array is in point t's block iff each coordinate is in the block's range on its axis. -/
theorem mem_blk (t : Fin cfg11.N) (i : S65536x64.Idx) :
    i ∈ ((cfg11.win 2).blk t).view.set ↔ ∀ a : Fin 2, win11_2.index t a * S8192x64.size a ≤ (i a).val ∧ (i a).val < win11_2.index t a * S8192x64.size a + S8192x64.size a := by
  show i ∈ ((View.whole main_v130).slice (win11_2.rect t)).set ↔ _
  rw [View.set_slice_whole, Rect.mem_set_unit]
  exact Iff.rfl

/-- Every index of the output array lies in the block of the point its row's quotient by 8192 names. -/
theorem cover (i : S65536x64.Idx) : ∃ t : Fin cfg11.N, (cfg11.win 2).flush t = true ∧ i ∈ ((cfg11.win 2).blk t).view.set := by
  have hi0 : (i 0).val < 65536 := (i 0).isLt
  have hi1 : (i 1).val < 64 := (i 1).isLt
  have hq : (i 0).val / 8192 < cfg11.N := lt_of_lt_of_eq (by omega : (i 0).val / 8192 < 8) N_11.symm
  obtain ⟨_, _, _, _, e20, e21⟩ := idx_facts ⟨(i 0).val / 8192, hq⟩
  refine ⟨⟨(i 0).val / 8192, hq⟩, flush11_2 _, ?_⟩
  rw [mem_blk]
  intro a
  match a with
  | ⟨0, _⟩ =>
    show win11_2.index ⟨(i 0).val / 8192, hq⟩ (0 : Fin 2) * 8192 ≤ (i 0).val ∧ (i 0).val < win11_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win11_2.index ⟨(i 0).val / 8192, hq⟩ (1 : Fin 2) * 64 ≤ (i 1).val ∧ (i 1).val < win11_2.index ⟨(i 0).val / 8192, hq⟩ (1 : Fin 2) * 64 + 64
    rw [e21]; omega

/-- The output array after the region: the bias step of the arrays the region found. -/
theorem final (c : Dev nD) :
    (dat11 V c).arrAt 2 cfg11.N = Cert.Gcn.Spec.bias (V c (Pipeline.arrRef spec11 0)) (V c (Pipeline.arrRef spec11 1)) :=
  (dat11 V c).arrAt_eq_of_cover 2 _ (fun t _ => flushed_eq V c t) (cover)

end Cert.Gcn.Region11
-- ==== Proof.Region12.lean ====
/-
  Region 12 (the decode step): whatever the buffers hold when the region is entered, it leaves in its output column, at
  labelled pair r, the sum over the 64 features of the products of row r of its two input arrays. Point t of the grid
  holds rows 8192·t … 8192·t + 8191 of all three arrays, and the 256 blocks cover the column.
-/
import proofs.«128295_j72739566125683_2_alg».proof.Proof.Gen.KernelIdeal.Frame
import proofs.«128295_j72739566125683_2_alg».proof.Proof.Tiles
import proofs.«128295_j72739566125683_2_alg».proof.Proof.Spec

set_option maxRecDepth 16384

noncomputable section

open scoped BigOperators

namespace Cert.Gcn.Region12

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the 256 grid points: all three row blocks move with the point. -/
theorem idx_facts : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

/-- What point t writes back is block t of the whole decode column. -/
theorem flushed_eq (c : Dev nD) (t : Fin cfg12.N) :
    (dat12 V c).flushed 2 t = ((cfg12.win 2).blk t).view.read (Elt Ideal)
      (Cert.Gcn.Spec.mulreduce (V c (Pipeline.arrRef spec12 0)) (V c (Pipeline.arrRef spec12 1))) := by
  show (cfg12.win 2).cut (grid12.coords t) ((dat12 V c).after 2 t) = _
  rw [after12_2]
  unfold out12_2
  rw [View.canon_unit_zero hz]
  simp only [View.ld_unit_zero (S := S8192x64) hz]
  obtain ⟨e00, e01, e10, e11, e20, e21⟩ := idx_facts t
  have hN : t.val < 256 := lt_of_lt_of_eq t.isLt N_12
  funext j
  obtain ⟨p, u, rfl⟩ : ∃ (p : Fin 8192) (u : Fin 1), j = ix2 p u := ⟨j 0, j 1, eq_ix2 j⟩
  have hr : t.val * 8192 + p.val < 2097152 := by have := p.isLt; omega
  have hemb : ((cfg12.win 2).blk t).view.emb (ix2 p u) = ix2 (⟨t.val * 8192 + p.val, hr⟩ : Fin 2097152) u := by
    funext a; apply Fin.ext
    match a with
    | ⟨0, _⟩ => show win12_2.index t (0 : Fin 2) * 8192 + 1 * p.val = t.val * 8192 + p.val; omega
    | ⟨1, _⟩ => show win12_2.index t (1 : Fin 2) * 1 + 1 * u.val = u.val; omega
  show k12_pay1 (iblk12 V c 0 t) (iblk12 V c 1 t) (ix2 p u) = Cert.Gcn.Spec.mulreduce _ _ (((cfg12.win 2).blk t).view.emb (ix2 p u))
  rw [hemb]
  refine (Cert.Gcn.Tiles.mulreduce_at (iblk12 V c 0 t) (iblk12 V c 1 t) p u).trans ?_
  unfold Cert.Gcn.Spec.mulreduce
  refine Finset.sum_congr rfl fun k _ => ?_
  have h0 : iblk12 V c 0 t (ix2 p k) = V c (Pipeline.arrRef spec12 0) (ix2 (⟨t.val * 8192 + p.val, hr⟩ : Fin 2097152) k) := by
    show V c (Pipeline.arrRef spec12 0) (((cfg12.win 0).blk t).view.emb (ix2 p k)) = _
    refine congrArg (V c (Pipeline.arrRef spec12 0)) (funext fun a => Fin.ext ?_)
    match a with
    | ⟨0, _⟩ => show win12_0.index t (0 : Fin 2) * 8192 + 1 * p.val = t.val * 8192 + p.val; omega
    | ⟨1, _⟩ => show win12_0.index t (1 : Fin 2) * 64 + 1 * k.val = k.val; omega
  have h1 : iblk12 V c 1 t (ix2 p k) = V c (Pipeline.arrRef spec12 1) (ix2 (⟨t.val * 8192 + p.val, hr⟩ : Fin 2097152) k) := by
    show V c (Pipeline.arrRef spec12 1) (((cfg12.win 1).blk t).view.emb (ix2 p k)) = _
    refine congrArg (V c (Pipeline.arrRef spec12 1)) (funext fun a => Fin.ext ?_)
    match a with
    | ⟨0, _⟩ => show win12_1.index t (0 : Fin 2) * 8192 + 1 * p.val = t.val * 8192 + p.val; omega
    | ⟨1, _⟩ => show win12_1.index t (1 : Fin 2) * 64 + 1 * k.val = k.val; omega
  rw [h0, h1]

/-- An index of the output column is in point t's block iff each coordinate is in the block's range on its axis. -/
theorem mem_blk (t : Fin cfg12.N) (i : S2097152x1.Idx) :
    i ∈ ((cfg12.win 2).blk t).view.set ↔ ∀ a : Fin 2, win12_2.index t a * S8192x1.size a ≤ (i a).val ∧ (i a).val < win12_2.index t a * S8192x1.size a + S8192x1.size a := by
  show i ∈ ((View.whole main_v149).slice (win12_2.rect t)).set ↔ _
  rw [View.set_slice_whole, Rect.mem_set_unit]
  exact Iff.rfl

/-- Every index of the output column lies in the block of the point its row's quotient by 8192 names. -/
theorem cover (i : S2097152x1.Idx) : ∃ t : Fin cfg12.N, (cfg12.win 2).flush t = true ∧ i ∈ ((cfg12.win 2).blk t).view.set := by
  have hi0 : (i 0).val < 2097152 := (i 0).isLt
  have hi1 : (i 1).val < 1 := (i 1).isLt
  have hq : (i 0).val / 8192 < cfg12.N := lt_of_lt_of_eq (by omega : (i 0).val / 8192 < 256) N_12.symm
  obtain ⟨_, _, _, _, e20, e21⟩ := idx_facts ⟨(i 0).val / 8192, hq⟩
  refine ⟨⟨(i 0).val / 8192, hq⟩, flush12_2 _, ?_⟩
  rw [mem_blk]
  intro a
  match a with
  | ⟨0, _⟩ =>
    show win12_2.index ⟨(i 0).val / 8192, hq⟩ (0 : Fin 2) * 8192 ≤ (i 0).val ∧ (i 0).val < win12_2.index ⟨(i 0).val / 8192, hq⟩ (0 : Fin 2) * 8192 + 8192
    rw [e20]; show (i 0).val / 8192 * 8192 ≤ (i 0).val ∧ (i 0).val < (i 0).val / 8192 * 8192 + 8192; omega
  | ⟨1, _⟩ =>
    show win12_2.index ⟨(i 0).val / 8192, hq⟩ (1 : Fin 2) * 1 ≤ (i 1).val ∧ (i 1).val < win12_2.index ⟨(i 0).val / 8192, hq⟩ (1 : Fin 2) * 1 + 1
    rw [e21]; omega

/-- The output column after the region: the decode sums of the arrays the region found. -/
theorem final (c : Dev nD) :
    (dat12 V c).arrAt 2 cfg12.N = Cert.Gcn.Spec.mulreduce (V c (Pipeline.arrRef spec12 0)) (V c (Pipeline.arrRef spec12 1)) :=
  (dat12 V c).arrAt_eq_of_cover 2 _ (fun t _ => flushed_eq V c t) (cover)

end Cert.Gcn.Region12
-- ==== Proof.Chain.lean ====
/-
  The idealized kernel's buffers, boundary by boundary, are the reference's stages. Both programs run the same host
  operations around different implementations of three steps; so at each boundary between two segments of the kernel's
  program, the buffers that matter hold the value the reference's corresponding operation computes from the launch
  arrays: after the prologue the index arrays and the normalised weights; after a transform region the reference's
  product; after the host stretch of a layer the reference's aggregated messages (gather, scale, scatter-add — the very
  operations, applied to equal operands) and the bias as a row; after a bias region the reference's activated (or, in the
  last layer, encoded) features; after the decode region the column of sums, whose reshape is the reference's result.
-/
import proofs.«128295_j72739566125683_2_alg».proof.Proof.Gen.KernelIdeal.Frame
import proofs.«128295_j72739566125683_2_alg».proof.Proof.Gen.ReferenceIdeal.Read
import proofs.«128295_j72739566125683_2_alg».proof.Proof.Spec
import proofs.«128295_j72739566125683_2_alg».proof.Proof.Bridges
import proofs.«128295_j72739566125683_2_alg».proof.Proof.Keep
import proofs.«128295_j72739566125683_2_alg».proof.Proof.Region0
import proofs.«128295_j72739566125683_2_alg».proof.Proof.Region1
import proofs.«128295_j72739566125683_2_alg».proof.Proof.Region2
import proofs.«128295_j72739566125683_2_alg».proof.Proof.Region3
import proofs.«128295_j72739566125683_2_alg».proof.Proof.Region4
import proofs.«128295_j72739566125683_2_alg».proof.Proof.Region5
import proofs.«128295_j72739566125683_2_alg».proof.Proof.Region6
import proofs.«128295_j72739566125683_2_alg».proof.Proof.Region7
import proofs.«128295_j72739566125683_2_alg».proof.Proof.Region8
import proofs.«128295_j72739566125683_2_alg».proof.Proof.Region9
import proofs.«128295_j72739566125683_2_alg».proof.Proof.Region10
import proofs.«128295_j72739566125683_2_alg».proof.Proof.Region11
import proofs.«128295_j72739566125683_2_alg».proof.Proof.Region12

set_option maxRecDepth 16384
set_option maxHeartbeats 4000000

noncomputable section

namespace Cert.Gcn.Chain

open Idealize.ShloMosaic Idealize.ShloMosaic.TcCoe Idealize.SL.Sem Idealize.ShloMosaic.StableHlo
open Cert.KernelIdeal Cert.KernelIdeal.Gen Cert.Gcn.Keep Cert.ReferenceIdeal.Read

variable (m : (ℓ : Loc nD τ sig) → Buf (Elt Ideal) ℓ) (ρ : Dev nD → PrngReg) (c : Dev nD)

/-! ## The prologue

The degrees (a scatter-add of the weights with the self loops' ones), their guarded reciprocal square roots, and the
normalised weights, stretch by stretch. The two guarded selections are calls of an outlined function, whose operations
read and write their buffers through type casts; each such stretch is first read at an arbitrary valuation, where the
casts fall away, and only then at the program's. -/

/-- The weighted in-degrees. -/
theorem deg1 : W1 m ρ c (Proc.devRef .tc main_v11) = val_main_v11 (F := Ideal) (m ((c : Thread nD τ).loc main_arg1)) (m ((c : Thread nD τ).loc main_arg2)) := by
  show StableHlo.after hostOps0 _ _ = _
  after_results_simp
  rfl
/-- Where the degree is positive (the guard of the reciprocal square root's argument). -/
theorem pos1 : W1 m ρ c (Proc.devRef .tc main_v15) = val_main_v15 (F := Ideal) (m ((c : Thread nD τ).loc main_arg1)) (m ((c : Thread nD τ).loc main_arg2)) := by
  show StableHlo.after hostOps0 _ _ = _
  after_results_simp
  rfl
/-- The constant one the guard substitutes. -/
theorem one1 : W1 m ρ c (Proc.devRef .tc main_cst_3) = val_main_cst_3 (F := Ideal) := by
  show StableHlo.after hostOps0 _ _ = _
  after_results_simp
  rfl

/-- The first guarded selection at any valuation: the degree where positive, one elsewhere. -/
theorem stage16 (V : Valuation τ sig (Elt Ideal)) : StableHlo.after hostOps0_1 V (Proc.devRef .tc main_v16)
    = select (V (Proc.devRef .tc main_v15)) (V (Proc.devRef .tc main_v11))
        (broadcastInDim S65536 (![] : Fin 0 → Fin S65536.rank) bcast_S_S65536 (V (Proc.devRef .tc main_cst_3))) := by
  after_results_simp
  rfl
theorem safe2 : W2 m ρ c (Proc.devRef .tc main_v16) = val_main_v16 (F := Ideal) (m ((c : Thread nD τ).loc main_arg1)) (m ((c : Thread nD τ).loc main_arg2)) := by
  refine (stage16 (W1 m ρ c)).trans ?_
  rw [pos1 m ρ c, deg1 m ρ c, one1 m ρ c]
  rfl

/-- The reciprocal square root and the constant zero, at any valuation. -/
theorem stage17 (V : Valuation τ sig (Elt Ideal)) : StableHlo.after hostOps0_2 V (Proc.devRef .tc main_v17)
    = (Host.rsqrt (F := Ideal) (φ := .f32) (V (Proc.devRef .tc main_v16)) : (⟨S65536, .f32⟩ : BufTy).Contents (Elt Ideal)) := by
  after_results_simp <;> rfl
theorem stage_zero (V : Valuation τ sig (Elt Ideal)) : StableHlo.after hostOps0_2 V (Proc.devRef .tc main_cst_4)
    = (constant (F := Ideal) S_ .f32 0x00000000#32 : (⟨S_, .f32⟩ : BufTy).Contents (Elt Ideal)) := by
  after_results_simp <;> rfl
theorem rsq3 : W3 m ρ c (Proc.devRef .tc main_v17) = val_main_v17 (F := Ideal) (m ((c : Thread nD τ).loc main_arg1)) (m ((c : Thread nD τ).loc main_arg2)) := by
  refine (stage17 (W2 m ρ c)).trans ?_
  rw [safe2 m ρ c]
  rfl
theorem zero3 : W3 m ρ c (Proc.devRef .tc main_cst_4) = val_main_cst_4 (F := Ideal) := stage_zero (W2 m ρ c)
/-- Where the degree is positive (the guard of the result), still there after two stretches. -/
theorem pos3 : W3 m ρ c (Proc.devRef .tc main_v13) = val_main_v13 (F := Ideal) (m ((c : Thread nD τ).loc main_arg1)) (m ((c : Thread nD τ).loc main_arg2)) := by
  show StableHlo.after hostOps0_2 _ _ = _
  after_results_simp
  rfl

/-- The second guarded selection at any valuation: the reciprocal square root where the degree is positive, zero elsewhere. -/
theorem stage18 (V : Valuation τ sig (Elt Ideal)) : StableHlo.after hostOps0_3 V (Proc.devRef .tc main_v18)
    = select (V (Proc.devRef .tc main_v13)) (V (Proc.devRef .tc main_v17))
        (broadcastInDim S65536 (![] : Fin 0 → Fin S65536.rank) bcast_S_S65536 (V (Proc.devRef .tc main_cst_4))) := by
  after_results_simp
  rfl
theorem dinv4 : W4 m ρ c (Proc.devRef .tc main_v18) = val_main_v18 (F := Ideal) (m ((c : Thread nD τ).loc main_arg1)) (m ((c : Thread nD τ).loc main_arg2)) := by
  refine (stage18 (W3 m ρ c)).trans ?_
  rw [pos3 m ρ c, rsq3 m ρ c, zero3 m ρ c]
  rfl
theorem src4 : W4 m ρ c (Proc.devRef .tc main_v5) = val_main_v5 (F := Ideal) (m ((c : Thread nD τ).loc main_arg1)) := by
  show StableHlo.after hostOps0_3 _ _ = _
  after_results_simp
  rfl
theorem dst4 : W4 m ρ c (Proc.devRef .tc main_v6) = val_main_v6 (F := Ideal) (m ((c : Thread nD τ).loc main_arg1)) := by
  show StableHlo.after hostOps0_3 _ _ = _
  after_results_simp
  rfl
theorem wts4 : W4 m ρ c (Proc.devRef .tc main_v8) = val_main_v8 (F := Ideal) (m ((c : Thread nD τ).loc main_arg2)) := by
  show StableHlo.after hostOps0_3 _ _ = _
  after_results_simp
  rfl

/-- The source indices with the self loops appended. -/
theorem src5 : W5 m ρ c (Proc.devRef .tc main_v5) = val_main_v5 (F := Ideal) (m ((c : Thread nD τ).loc main_arg1)) := by
  show StableHlo.after hostOps0_4 _ _ = _
  after_results_simp
  rfl
/-- The target indices with the self loops appended. -/
theorem dst5 : W5 m ρ c (Proc.devRef .tc main_v6) = val_main_v6 (F := Ideal) (m ((c : Thread nD τ).loc main_arg1)) := by
  show StableHlo.after hostOps0_4 _ _ = _
  after_results_simp
  rfl
/-- The symmetrically normalised edge weights: the last stretch read at the previous boundary's four arrays. -/
theorem norm5 : W5 m ρ c (Proc.devRef .tc main_v34) = val_main_v34 (F := Ideal) (m ((c : Thread nD τ).loc main_arg1)) (m ((c : Thread nD τ).loc main_arg2)) := by
  have e5 := src4 m ρ c
  have e6 := dst4 m ρ c
  have e8 := wts4 m ρ c
  have e18 := dinv4 m ρ c
  show StableHlo.after hostOps0_4 (W4 m ρ c) _ = _
  generalize W4 m ρ c = V at e5 e6 e8 e18 ⊢
  after_results_simp
  rw [e5, e6, e8, e18]
  rfl

/-! ## Layer 1 -/

/-- After the layer's transform region: the reference's product. -/
theorem lin0 : W6 m ρ c (Proc.devRef .tc main_v35) = val_main_v35 (F := Ideal) (m ((c : Thread nD τ).loc main_arg0)) (m ((c : Thread nD τ).loc main_arg4)) := by
  refine (W6_arr m ρ c 2).trans ((Cert.Gcn.Region0.final (V5 m ρ) c).trans ?_)
  show Cert.Gcn.Spec.lin32 (W5 m ρ c (Proc.devRef .tc main_arg0)) (W5 m ρ c (Proc.devRef .tc main_arg4)) = _
  rw [args5 m ρ c main_arg0 (by simp [Args]), args5 m ρ c main_arg4 (by simp [Args])]
  rfl

theorem src6 : W6 m ρ c (Proc.devRef .tc main_v5) = val_main_v5 (F := Ideal) (m ((c : Thread nD τ).loc main_arg1)) :=
  (pro6 m ρ c main_v5 (by simp [Pro])).trans (src5 m ρ c)
theorem dst6 : W6 m ρ c (Proc.devRef .tc main_v6) = val_main_v6 (F := Ideal) (m ((c : Thread nD τ).loc main_arg1)) :=
  (pro6 m ρ c main_v6 (by simp [Pro])).trans (dst5 m ρ c)
theorem norm6 : W6 m ρ c (Proc.devRef .tc main_v34) = val_main_v34 (F := Ideal) (m ((c : Thread nD τ).loc main_arg1)) (m ((c : Thread nD τ).loc main_arg2)) :=
  (pro6 m ρ c main_v34 (by simp [Pro])).trans (norm5 m ρ c)

/-- After the layer's host stretch: the reference's aggregated messages. -/
theorem agg0 : W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg4)) := by
  show StableHlo.after hostOps1 (W6 m ρ c) _ = _
  after_results_simp
  rw [lin0 m ρ c, src6 m ρ c, dst6 m ρ c, norm6 m ρ c]
  rfl
/-- After the layer's host stretch: the bias as a row. -/
theorem brow0 : W7 m ρ c (Proc.devRef .tc main_v49) = shapeCast S1x64 (m ((c : Thread nD τ).loc main_arg5)) shapeCasts_S64_S1x64 := by
  show StableHlo.after hostOps1 (W6 m ρ c) _ = _
  after_results_simp
  rw [args6 m ρ c main_arg5 (by simp [Args])]
  rfl

/-- After the layer's bias region: the reference's activated features. -/
theorem act0 : W8 m ρ c (Proc.devRef .tc main_v50) = val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W8_arr m ρ c 2).trans ((Cert.Gcn.Region1.final (V7 m ρ) c).trans ?_)
  show Cert.Gcn.Spec.biasrelu (W7 m ρ c (Proc.devRef .tc main_v48)) (W7 m ρ c (Proc.devRef .tc main_v49)) = _
  rw [agg0 m ρ c, brow0 m ρ c]
  exact Cert.Gcn.Bridges.biasrelu_ref _ _ _

/-! ## Layer 2 -/

/-- After the layer's transform region: the reference's product. -/
theorem lin1 : W9 m ρ c (Proc.devRef .tc main_v51) = val_main_v53 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W9_arr m ρ c 2).trans ((Cert.Gcn.Region2.final (V8 m ρ) c).trans ?_)
  show Cert.Gcn.Spec.lin64 (W8 m ρ c (Proc.devRef .tc main_v50)) (W8 m ρ c (Proc.devRef .tc main_arg6)) = _
  rw [act0 m ρ c, args8 m ρ c main_arg6 (by simp [Args])]
  rfl

theorem src9 : W9 m ρ c (Proc.devRef .tc main_v5) = val_main_v5 (F := Ideal) (m ((c : Thread nD τ).loc main_arg1)) :=
  (pro9 m ρ c main_v5 (by simp [Pro])).trans (src5 m ρ c)
theorem dst9 : W9 m ρ c (Proc.devRef .tc main_v6) = val_main_v6 (F := Ideal) (m ((c : Thread nD τ).loc main_arg1)) :=
  (pro9 m ρ c main_v6 (by simp [Pro])).trans (dst5 m ρ c)
theorem norm9 : W9 m ρ c (Proc.devRef .tc main_v34) = val_main_v34 (F := Ideal) (m ((c : Thread nD τ).loc main_arg1)) (m ((c : Thread nD τ).loc main_arg2)) :=
  (pro9 m ρ c main_v34 (by simp [Pro])).trans (norm5 m ρ c)

/-- After the layer's host stretch: the reference's aggregated messages. -/
theorem agg1 : W10 m ρ c (Proc.devRef .tc main_v64) = val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps3 (W9 m ρ c) _ = _
  after_results_simp
  rw [lin1 m ρ c, src9 m ρ c, dst9 m ρ c, norm9 m ρ c]
  rfl
/-- After the layer's host stretch: the bias as a row. -/
theorem brow1 : W10 m ρ c (Proc.devRef .tc main_v65) = shapeCast S1x64 (m ((c : Thread nD τ).loc main_arg7)) shapeCasts_S64_S1x64 := by
  show StableHlo.after hostOps3 (W9 m ρ c) _ = _
  after_results_simp
  rw [args9 m ρ c main_arg7 (by simp [Args])]
  rfl

/-- After the layer's bias region: the reference's activated features. -/
theorem act1 : W11 m ρ c (Proc.devRef .tc main_v66) = val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W11_arr m ρ c 2).trans ((Cert.Gcn.Region3.final (V10 m ρ) c).trans ?_)
  show Cert.Gcn.Spec.biasrelu (W10 m ρ c (Proc.devRef .tc main_v64)) (W10 m ρ c (Proc.devRef .tc main_v65)) = _
  rw [agg1 m ρ c, brow1 m ρ c]
  exact Cert.Gcn.Bridges.biasrelu_ref _ _ _

/-! ## Layer 3 -/

/-- After the layer's transform region: the reference's product. -/
theorem lin2 : W12 m ρ c (Proc.devRef .tc main_v67) = val_main_v71 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ((Cert.Gcn.Region4.final (V11 m ρ) c).trans ?_)
  show Cert.Gcn.Spec.lin64 (W11 m ρ c (Proc.devRef .tc main_v66)) (W11 m ρ c (Proc.devRef .tc main_arg8)) = _
  rw [act1 m ρ c, args11 m ρ c main_arg8 (by simp [Args])]
  rfl

theorem src12 : W12 m ρ c (Proc.devRef .tc main_v5) = val_main_v5 (F := Ideal) (m ((c : Thread nD τ).loc main_arg1)) :=
  (pro12 m ρ c main_v5 (by simp [Pro])).trans (src5 m ρ c)
theorem dst12 : W12 m ρ c (Proc.devRef .tc main_v6) = val_main_v6 (F := Ideal) (m ((c : Thread nD τ).loc main_arg1)) :=
  (pro12 m ρ c main_v6 (by simp [Pro])).trans (dst5 m ρ c)
theorem norm12 : W12 m ρ c (Proc.devRef .tc main_v34) = val_main_v34 (F := Ideal) (m ((c : Thread nD τ).loc main_arg1)) (m ((c : Thread nD τ).loc main_arg2)) :=
  (pro12 m ρ c main_v34 (by simp [Pro])).trans (norm5 m ρ c)

/-- After the layer's host stretch: the reference's aggregated messages. -/
theorem agg2 : W13 m ρ c (Proc.devRef .tc main_v80) = val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W12 m ρ c) _ = _
  after_results_simp
  rw [lin2 m ρ c, src12 m ρ c, dst12 m ρ c, norm12 m ρ c]
  rfl
/-- After the layer's host stretch: the bias as a row. -/
theorem brow2 : W13 m ρ c (Proc.devRef .tc main_v81) = shapeCast S1x64 (m ((c : Thread nD τ).loc main_arg9)) shapeCasts_S64_S1x64 := by
  show StableHlo.after hostOps5 (W12 m ρ c) _ = _
  after_results_simp
  rw [args12 m ρ c main_arg9 (by simp [Args])]
  rfl

/-- After the layer's bias region: the reference's activated features. -/
theorem act2 : W14 m ρ c (Proc.devRef .tc main_v82) = val_main_v88 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 2).trans ((Cert.Gcn.Region5.final (V13 m ρ) c).trans ?_)
  show Cert.Gcn.Spec.biasrelu (W13 m ρ c (Proc.devRef .tc main_v80)) (W13 m ρ c (Proc.devRef .tc main_v81)) = _
  rw [agg2 m ρ c, brow2 m ρ c]
  exact Cert.Gcn.Bridges.biasrelu_ref _ _ _

/-! ## Layer 4 -/

/-- After the layer's transform region: the reference's product. -/
theorem lin3 : W15 m ρ c (Proc.devRef .tc main_v83) = val_main_v89 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W15_arr m ρ c 2).trans ((Cert.Gcn.Region6.final (V14 m ρ) c).trans ?_)
  show Cert.Gcn.Spec.lin64 (W14 m ρ c (Proc.devRef .tc main_v82)) (W14 m ρ c (Proc.devRef .tc main_arg10)) = _
  rw [act2 m ρ c, args14 m ρ c main_arg10 (by simp [Args])]
  rfl

theorem src15 : W15 m ρ c (Proc.devRef .tc main_v5) = val_main_v5 (F := Ideal) (m ((c : Thread nD τ).loc main_arg1)) :=
  (pro15 m ρ c main_v5 (by simp [Pro])).trans (src5 m ρ c)
theorem dst15 : W15 m ρ c (Proc.devRef .tc main_v6) = val_main_v6 (F := Ideal) (m ((c : Thread nD τ).loc main_arg1)) :=
  (pro15 m ρ c main_v6 (by simp [Pro])).trans (dst5 m ρ c)
theorem norm15 : W15 m ρ c (Proc.devRef .tc main_v34) = val_main_v34 (F := Ideal) (m ((c : Thread nD τ).loc main_arg1)) (m ((c : Thread nD τ).loc main_arg2)) :=
  (pro15 m ρ c main_v34 (by simp [Pro])).trans (norm5 m ρ c)

/-- After the layer's host stretch: the reference's aggregated messages. -/
theorem agg3 : W16 m ρ c (Proc.devRef .tc main_v96) = val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps7 (W15 m ρ c) _ = _
  after_results_simp
  rw [lin3 m ρ c, src15 m ρ c, dst15 m ρ c, norm15 m ρ c]
  rfl
/-- After the layer's host stretch: the bias as a row. -/
theorem brow3 : W16 m ρ c (Proc.devRef .tc main_v97) = shapeCast S1x64 (m ((c : Thread nD τ).loc main_arg11)) shapeCasts_S64_S1x64 := by
  show StableHlo.after hostOps7 (W15 m ρ c) _ = _
  after_results_simp
  rw [args15 m ρ c main_arg11 (by simp [Args])]
  rfl

/-- After the layer's bias region: the reference's activated features. -/
theorem act3 : W17 m ρ c (Proc.devRef .tc main_v98) = val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W17_arr m ρ c 2).trans ((Cert.Gcn.Region7.final (V16 m ρ) c).trans ?_)
  show Cert.Gcn.Spec.biasrelu (W16 m ρ c (Proc.devRef .tc main_v96)) (W16 m ρ c (Proc.devRef .tc main_v97)) = _
  rw [agg3 m ρ c, brow3 m ρ c]
  exact Cert.Gcn.Bridges.biasrelu_ref _ _ _

/-! ## Layer 5 -/

/-- After the layer's transform region: the reference's product. -/
theorem lin4 : W18 m ρ c (Proc.devRef .tc main_v99) = val_main_v107 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W18_arr m ρ c 2).trans ((Cert.Gcn.Region8.final (V17 m ρ) c).trans ?_)
  show Cert.Gcn.Spec.lin64 (W17 m ρ c (Proc.devRef .tc main_v98)) (W17 m ρ c (Proc.devRef .tc main_arg12)) = _
  rw [act3 m ρ c, args17 m ρ c main_arg12 (by simp [Args])]
  rfl

theorem src18 : W18 m ρ c (Proc.devRef .tc main_v5) = val_main_v5 (F := Ideal) (m ((c : Thread nD τ).loc main_arg1)) :=
  (pro18 m ρ c main_v5 (by simp [Pro])).trans (src5 m ρ c)
theorem dst18 : W18 m ρ c (Proc.devRef .tc main_v6) = val_main_v6 (F := Ideal) (m ((c : Thread nD τ).loc main_arg1)) :=
  (pro18 m ρ c main_v6 (by simp [Pro])).trans (dst5 m ρ c)
theorem norm18 : W18 m ρ c (Proc.devRef .tc main_v34) = val_main_v34 (F := Ideal) (m ((c : Thread nD τ).loc main_arg1)) (m ((c : Thread nD τ).loc main_arg2)) :=
  (pro18 m ρ c main_v34 (by simp [Pro])).trans (norm5 m ρ c)

/-- After the layer's host stretch: the reference's aggregated messages. -/
theorem agg4 : W19 m ρ c (Proc.devRef .tc main_v112) = val_main_v120 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps9 (W18 m ρ c) _ = _
  after_results_simp
  rw [lin4 m ρ c, src18 m ρ c, dst18 m ρ c, norm18 m ρ c]
  rfl
/-- After the layer's host stretch: the bias as a row. -/
theorem brow4 : W19 m ρ c (Proc.devRef .tc main_v113) = shapeCast S1x64 (m ((c : Thread nD τ).loc main_arg13)) shapeCasts_S64_S1x64 := by
  show StableHlo.after hostOps9 (W18 m ρ c) _ = _
  after_results_simp
  rw [args18 m ρ c main_arg13 (by simp [Args])]
  rfl

/-- After the layer's bias region: the reference's activated features. -/
theorem act4 : W20 m ρ c (Proc.devRef .tc main_v114) = val_main_v124 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W20_arr m ρ c 2).trans ((Cert.Gcn.Region9.final (V19 m ρ) c).trans ?_)
  show Cert.Gcn.Spec.biasrelu (W19 m ρ c (Proc.devRef .tc main_v112)) (W19 m ρ c (Proc.devRef .tc main_v113)) = _
  rw [agg4 m ρ c, brow4 m ρ c]
  exact Cert.Gcn.Bridges.biasrelu_ref _ _ _

/-! ## Layer 6 -/

/-- After the layer's transform region: the reference's product. -/
theorem lin5 : W21 m ρ c (Proc.devRef .tc main_v115) = val_main_v125 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W21_arr m ρ c 2).trans ((Cert.Gcn.Region10.final (V20 m ρ) c).trans ?_)
  show Cert.Gcn.Spec.lin64 (W20 m ρ c (Proc.devRef .tc main_v114)) (W20 m ρ c (Proc.devRef .tc main_arg14)) = _
  rw [act4 m ρ c, args20 m ρ c main_arg14 (by simp [Args])]
  rfl

theorem src21 : W21 m ρ c (Proc.devRef .tc main_v5) = val_main_v5 (F := Ideal) (m ((c : Thread nD τ).loc main_arg1)) :=
  (pro21 m ρ c main_v5 (by simp [Pro])).trans (src5 m ρ c)
theorem dst21 : W21 m ρ c (Proc.devRef .tc main_v6) = val_main_v6 (F := Ideal) (m ((c : Thread nD τ).loc main_arg1)) :=
  (pro21 m ρ c main_v6 (by simp [Pro])).trans (dst5 m ρ c)
theorem norm21 : W21 m ρ c (Proc.devRef .tc main_v34) = val_main_v34 (F := Ideal) (m ((c : Thread nD τ).loc main_arg1)) (m ((c : Thread nD τ).loc main_arg2)) :=
  (pro21 m ρ c main_v34 (by simp [Pro])).trans (norm5 m ρ c)

/-- After the layer's host stretch: the reference's aggregated messages. -/
theorem agg5 : W22 m ρ c (Proc.devRef .tc main_v128) = val_main_v138 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps11 (W21 m ρ c) _ = _
  after_results_simp
  rw [lin5 m ρ c, src21 m ρ c, dst21 m ρ c, norm21 m ρ c]
  rfl
/-- After the layer's host stretch: the bias as a row. -/
theorem brow5 : W22 m ρ c (Proc.devRef .tc main_v129) = shapeCast S1x64 (m ((c : Thread nD τ).loc main_arg15)) shapeCasts_S64_S1x64 := by
  show StableHlo.after hostOps11 (W21 m ρ c) _ = _
  after_results_simp
  rw [args21 m ρ c main_arg15 (by simp [Args])]
  rfl

/-- After the layer's bias region: the reference's encoded features. -/
theorem act5 : W23 m ρ c (Proc.devRef .tc main_v130) = val_main_v141 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W23_arr m ρ c 2).trans ((Cert.Gcn.Region11.final (V22 m ρ) c).trans ?_)
  show Cert.Gcn.Spec.bias (W22 m ρ c (Proc.devRef .tc main_v128)) (W22 m ρ c (Proc.devRef .tc main_v129)) = _
  rw [agg5 m ρ c, brow5 m ρ c]
  exact Cert.Gcn.Bridges.bias_ref _ _ _

/-! ## The decode -/

/-- After the last host stretch before the decode region: the first endpoints' gathered rows. -/
theorem end0 : W24 m ρ c (Proc.devRef .tc main_v139) = val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps12 (W23 m ρ c) _ = _
  after_results_simp
  rw [act5 m ρ c, args23 m ρ c main_arg3 (by simp [Args])]
  rfl
/-- … and the second endpoints'. -/
theorem end1 : W24 m ρ c (Proc.devRef .tc main_v148) = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps12 (W23 m ρ c) _ = _
  after_results_simp
  rw [act5 m ρ c, args23 m ρ c main_arg3 (by simp [Args])]
  rfl

/-- After the decode region: the column of sums over the features of the products of the gathered rows. -/
theorem dec : W25 m ρ c (Proc.devRef .tc main_v149)
    = Cert.Gcn.Spec.mulreduce (val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W25_arr m ρ c 2).trans ((Cert.Gcn.Region12.final (V24 m ρ) c).trans ?_)
  show Cert.Gcn.Spec.mulreduce (W24 m ρ c (Proc.devRef .tc main_v139)) (W24 m ρ c (Proc.devRef .tc main_v148)) = _
  rw [end0 m ρ c, end1 m ρ c]

/-- THE RESULT: the kernel's result array, at the last boundary, is the reference's result stage of the launch arrays. -/
theorem result : W26 m ρ c (Proc.devRef .tc main_v150) = val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps13 (W25 m ρ c) _ = _
  after_results_simp
  rw [dec m ρ c]
  exact Cert.Gcn.Bridges.mulreduce_ref _ _ _

end Cert.Gcn.Chain
-- ==== Proof.lean ====
/-
  The idealized kernel and the idealized reference compute one function of the launch arrays.

  Both are a six-layer graph convolution followed by a dot-product decode over labelled node pairs. The normalisation of
  the edge weights, and in every layer the gather of transformed rows at the edges' sources, their scaling and the
  scatter-add at the targets, are the same host operations in both programs. They differ in three steps, each a kernel
  region in one program and host operations in the other, and equal at the exact values with no arithmetic law beyond a
  sum's independence of its order: a layer's feature transform (eight row blocks of a tile product, operands rounded —
  the identity on exact values — and accumulated into zero, against one plain product of all rows); a layer's bias step
  (the bias row added to every block of rows and clamped at zero, against a broadcast add and a maximum with a broadcast
  zero); and the decode (per block of pairs, the sum over the features of the products of the two gathered rows, kept
  as a column and reshaped, against a multiply and a sum over the feature axis). No step needs the inputs to be finite.

  The three frames are the generated ones (the reference's is its generated run with the result dropped); nothing was
  rewritten by the idealization, so its conjunct is trivial; the value claim pairs the kernel's run, its result named by
  the fold of its twenty-six segments and that fold read boundary by boundary as the reference's stages, with the
  reference's generated run.
-/
import proofs.«128295_j72739566125683_2_alg».proof.Defs
import proofs.«128295_j72739566125683_2_alg».proof.Proof.Gen.Kernel
import proofs.«128295_j72739566125683_2_alg».proof.Proof.Gen.Kernel.Frame
import proofs.«128295_j72739566125683_2_alg».proof.Proof.Gen.KernelIdeal
import proofs.«128295_j72739566125683_2_alg».proof.Proof.Gen.KernelIdeal.Frame
import proofs.«128295_j72739566125683_2_alg».proof.Proof.Gen.ReferenceIdeal
import proofs.«128295_j72739566125683_2_alg».proof.Proof.Gen.Pre_finite_inputs
import proofs.«128295_j72739566125683_2_alg».proof.Proof.Gen.ReferenceIdeal.Run
import proofs.«128295_j72739566125683_2_alg».proof.Proof.Gen.ReferenceIdeal.Read
import proofs.«128295_j72739566125683_2_alg».proof.Proof.RunValue
import proofs.«128295_j72739566125683_2_alg».proof.Proof.Chain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result stage of the (agreeing) launch arrays in their result array. -/
theorem algebraic : Cert.algebraic_KernelIdeal_ReferenceIdeal := by
  intro m ρ m' ρ' _ hagree
  refine ⟨fun c => Cert.ReferenceIdeal.Read.val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun _ h c => ⟨(h c).1.trans (Cert.Gcn.Chain.result m ρ c), (h c).2⟩)
      (Cert.Gcn.RunValue.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v161_eq, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
